-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 105
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x128, .f32⟩
  | .hbm, ⟨77, _⟩ => ⟨S850000x1, .f32⟩
  | .hbm, ⟨78, _⟩ => ⟨S850000x128, .f32⟩
  | .hbm, ⟨79, _⟩ => ⟨S850000x128, .f32⟩
  | .hbm, ⟨80, _⟩ => ⟨S_, .f32⟩
  | .hbm, ⟨81, _⟩ => ⟨S50000x128, .f32⟩
  | .hbm, ⟨82, _⟩ => ⟨S850000x1, .i32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000x128, .f32⟩
  | .hbm, ⟨96, _⟩ => ⟨S850000x1, .f32⟩
  | .hbm, ⟨97, _⟩ => ⟨S850000x128, .f32⟩
  | .hbm, ⟨98, _⟩ => ⟨S850000x128, .f32⟩
  | .hbm, ⟨99, _⟩ => ⟨S_, .f32⟩
  | .hbm, ⟨100, _⟩ => ⟨S50000x128, .f32⟩
  | .hbm, ⟨101, _⟩ => ⟨S850000x1, .i32⟩
  | .hbm, ⟨102, _⟩ => ⟨S50000x128, .f32⟩
  | .hbm, ⟨103, _⟩ => ⟨S1x128, .f32⟩
  | .hbm, ⟨104, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x128, .f32⟩
  | .hbm, ⟨81, _⟩ => ⟨S850000x1, .f32⟩
  | .hbm, ⟨82, _⟩ => ⟨S850000x128, .f32⟩
  | .hbm, ⟨83, _⟩ => ⟨S850000x128, .f32⟩
  | .hbm, ⟨84, _⟩ => ⟨S_, .f32⟩
  | .hbm, ⟨85, _⟩ => ⟨S50000x128, .f32⟩
  | .hbm, ⟨86, _⟩ => ⟨S850000x1, .i32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S_, .f32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S_, .i32⟩
  | .hbm, ⟨96, _⟩ => ⟨S850000, .i32⟩
  | .hbm, ⟨97, _⟩ => ⟨S850000, .i1⟩
  | .hbm, ⟨98, _⟩ => ⟨S_, .i32⟩
  | .hbm, ⟨99, _⟩ => ⟨S850000, .i32⟩
  | .hbm, ⟨100, _⟩ => ⟨S850000, .i32⟩
  | .hbm, ⟨101, _⟩ => ⟨S850000, .i32⟩
  | .hbm, ⟨102, _⟩ => ⟨S850000x1, .i32⟩
  | .hbm, ⟨103, _⟩ => ⟨S850000x128, .f32⟩
  | .hbm, ⟨104, _⟩ => ⟨S850000x1, .f32⟩
  | .hbm, ⟨105, _⟩ => ⟨S850000x128, .f32⟩
  | .hbm, ⟨106, _⟩ => ⟨S850000x128, .f32⟩
  | .hbm, ⟨107, _⟩ => ⟨S_, .f32⟩
  | .hbm, ⟨108, _⟩ => ⟨S50000x128, .f32⟩
  | .hbm, ⟨109, _⟩ => ⟨S850000x1, .i32⟩
  | .hbm, ⟨110, _⟩ => ⟨S50000x128, .f32⟩
  | .hbm, ⟨111, _⟩ => ⟨S1x128, .f32⟩
  | .hbm, ⟨112, _⟩ => ⟨S50000x128, .f32⟩
  | .hbm, ⟨113, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The idealized kernel's run with its result named.

  @main is twelve segments: stretches of host operations and six pipelined regions.  The contents of every
  unscoped buffer at each segment boundary are a fold through @main (the boundary valuations `W0 … W12`): a
  stretch applies its operations' functions, a region replaces its output array by the blocks its grid points
  write back.  Every weakly fair execution terminates with each unscoped buffer holding the last boundary's
  contents; read at the result buffer this names the result array, and read at the arguments it says they are
  unchanged.
-/
import proofs.«112825_j71571335020554_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents of its buffer and the argument arrays as launched. -/
theorem run : θ_run defs (onTc (τ := τ) (main (F := F))) ⟨m, fun _ => 0, ρ⟩ (fun r => ∀ c : Dev nD,
      r.2.mem ((c.tc : Thread nD τ).loc main_v77) = W12 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v77 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Named

end
-- ==== Proof.Payloads.lean ====
/-
  The six kernel bodies as functions of their loaded blocks, read at one index, on the extended reals.

  Three bodies multiply a 5000 × 128 block of rows by the 128 × 128 weights into a zero accumulator: entry (p, q) is
  the sum over k of block (p, k) · weights (k, q).  Three add the 1 × 128 bias row to every row of the block, two of
  them then taking the larger of the sum and zero.
-/
import proofs.«112825_j71571335020554_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen

/-- The bodies' contraction: the block's axis 1 against the weights' axis 0. -/
abbrev blockDot : DotDims S5000x128 S128x128 S5000x128 := dot_S5000x128_S128x128_S5000x128_1_0_0_1_n_n

theorem blockDot_rank : blockDot.contr.rank = 1 := rfl

theorem lhs_row (i : S5000x128.Idx) (k : blockDot.contr.Idx) : (blockDot.lhsIdx i k ⟨0, Nat.zero_lt_two⟩).val = (i 0).val := rfl
theorem rhs_col (i : S5000x128.Idx) (k : blockDot.contr.Idx) : (blockDot.rhsIdx i k ⟨1, Nat.one_lt_two⟩).val = (i 1).val := rfl
theorem lhs_contr (i : S5000x128.Idx) (k : blockDot.contr.Idx) :
    (blockDot.lhsIdx i k ⟨1, Nat.one_lt_two⟩).val = (k ⟨0, Nat.one_pos⟩).val :=
  DotDims.lhsIdx_val_of_single blockDot (cl := ⟨1, Nat.one_lt_two⟩) rfl i k
theorem rhs_contr (i : S5000x128.Idx) (k : blockDot.contr.Idx) :
    (blockDot.rhsIdx i k ⟨0, Nat.zero_lt_two⟩).val = (k ⟨0, Nat.one_pos⟩).val :=
  DotDims.rhsIdx_val_of_single blockDot (cr := ⟨0, Nat.zero_lt_two⟩) rfl i k

/-- A block times the weights into a zero accumulator, read at (p, q): the plain sum over the contracted axis. -/
theorem matmul_block (a : FVec Ideal S5000x128 .f32) (w : FVec Ideal S128x128 .f32) (p : Fin 5000) (q : Fin 128) :
    matmul (F := Ideal) blockDot none (truncf .bf16 a bitsLt_bf16_f32) (truncf .bf16 w bitsLt_bf16_f32)
      (constant S5000x128 .f32 0x00000000#32) (ix2 p q) = ∑ k : Fin 128, a (ix2 p k) * w (ix2 k q) := by
  show FloatOps.matmul blockDot none _ _ _ (ix2 p q) = _
  rw [Ideal.matmul_constant_zero_apply, ← Equiv.sum_comp (contrEquiv1 blockDot 128 rfl rfl).symm]
  refine Finset.sum_congr rfl fun k _ => ?_
  have hk := contrEquiv1_symm_val blockDot 128 rfl rfl k
  have el : blockDot.lhsIdx (ix2 p q) ((contrEquiv1 blockDot 128 rfl rfl).symm k) = ix2 p k := funext fun d => Fin.ext (by
    match d with
    | ⟨0, _⟩ => exact lhs_row _ _
    | ⟨1, _⟩ => exact (lhs_contr _ _).trans hk)
  have er : blockDot.rhsIdx (ix2 p q) ((contrEquiv1 blockDot 128 rfl rfl).symm k) = ix2 k q := funext fun d => Fin.ext (by
    match d with
    | ⟨0, _⟩ => exact (rhs_contr _ _).trans hk
    | ⟨1, _⟩ => exact rhs_col _ _)
  rw [el, er]
  rfl

/-- The bias row spread over the block's 5000 rows, read at (p, q): the row's entry of column q. -/
theorem bias_row (b : FVec Ideal S1x128 .f32) (p : Fin 5000) (q : Fin 128) :
    broadcastTo S5000x128 b broadcasts_S1x128_S5000x128 (ix2 p q) = b (ix2 0 q) :=
  broadcastTo_apply b broadcasts_S1x128_S5000x128 (ix2 p q) (ix2 0 q) (fun d => by
    match d with
    | ⟨0, _⟩ => rfl
    | ⟨1, _⟩ => rfl)

/-- Region 0's body at row `p`, column `q` of its block: the row of the loaded block against the column of the
    loaded weights, summed over the 128 contracted positions (the two changes of float format are the identity on the
    extended reals, and the accumulator starts at zero). -/
theorem pay0 (v0 : Vec Ideal S5000x128 .f32) (v2 : Vec Ideal S128x128 .f32) (p : Fin 5000) (q : Fin 128) :
    k0_pay1 (F := Ideal) v0 v2 (ix2 p q) = ∑ k : Fin 128, v0 (ix2 p k) * v2 (ix2 k q) := by
  unfold k0_pay1
  exact matmul_block _ _ p q

/-- Region 1's body at row `p`, column `q` of its block: the loaded entry plus the bias row's entry of that column,
    then the larger of that and zero. -/
theorem pay1 (v0 : Vec Ideal S5000x128 .f32) (v2 : Vec Ideal S1x128 .f32) (p : Fin 5000) (q : Fin 128) :
    k1_pay1 (F := Ideal) v0 v2 (ix2 p q) = max (v0 (ix2 p q) + v2 (ix2 0 q)) (Ideal.ofBits .f32 0x00000000#32) := by
  unfold k1_pay1
  rw [shapeCast_self, shapeCast_self]
  show max (v0 (ix2 p q) + broadcastTo S5000x128 v2 broadcasts_S1x128_S5000x128 (ix2 p q)) _ = _
  rw [bias_row v2 p q]
  rfl

/-- Region 2's body at row `p`, column `q` of its block: the row of the loaded block against the column of the
    loaded weights, summed over the 128 contracted positions (the two changes of float format are the identity on the
    extended reals, and the accumulator starts at zero). -/
theorem pay2 (v0 : Vec Ideal S5000x128 .f32) (v2 : Vec Ideal S128x128 .f32) (p : Fin 5000) (q : Fin 128) :
    k2_pay1 (F := Ideal) v0 v2 (ix2 p q) = ∑ k : Fin 128, v0 (ix2 p k) * v2 (ix2 k q) := by
  unfold k2_pay1
  rw [shapeCast_self]
  exact matmul_block _ _ p q

/-- Region 3's body at row `p`, column `q` of its block: the loaded entry plus the bias row's entry of that column,
    then the larger of that and zero. -/
theorem pay3 (v0 : Vec Ideal S5000x128 .f32) (v2 : Vec Ideal S1x128 .f32) (p : Fin 5000) (q : Fin 128) :
    k3_pay1 (F := Ideal) v0 v2 (ix2 p q) = max (v0 (ix2 p q) + v2 (ix2 0 q)) (Ideal.ofBits .f32 0x00000000#32) := by
  unfold k3_pay1
  rw [shapeCast_self, shapeCast_self]
  show max (v0 (ix2 p q) + broadcastTo S5000x128 v2 broadcasts_S1x128_S5000x128 (ix2 p q)) _ = _
  rw [bias_row v2 p q]
  rfl

/-- Region 4's body at row `p`, column `q` of its block: the row of the loaded block against the column of the
    loaded weights, summed over the 128 contracted positions (the two changes of float format are the identity on the
    extended reals, and the accumulator starts at zero). -/
theorem pay4 (v0 : Vec Ideal S5000x128 .f32) (v2 : Vec Ideal S128x128 .f32) (p : Fin 5000) (q : Fin 128) :
    k4_pay1 (F := Ideal) v0 v2 (ix2 p q) = ∑ k : Fin 128, v0 (ix2 p k) * v2 (ix2 k q) := by
  unfold k4_pay1
  rw [shapeCast_self]
  exact matmul_block _ _ p q

/-- Region 5's body at row `p`, column `q` of its block: the loaded entry plus the bias row's entry of that column. -/
theorem pay5 (v0 : Vec Ideal S5000x128 .f32) (v2 : Vec Ideal S1x128 .f32) (p : Fin 5000) (q : Fin 128) :
    k5_pay1 (F := Ideal) v0 v2 (ix2 p q) = v0 (ix2 p q) + v2 (ix2 0 q) := by
  unfold k5_pay1
  rw [shapeCast_self, shapeCast_self]
  show v0 (ix2 p q) + broadcastTo S5000x128 v2 broadcasts_S1x128_S5000x128 (ix2 p q) = _
  rw [bias_row v2 p q]

end Cert.KernelIdeal.Body

end
-- ==== Proof.Blocks.lean ====
/-
  From blocks to arrays: what each region leaves in its output array, as one function of the arrays it reads.

  Each region's grid has ten points; point t reads rows 5000·t … 5000·t + 4999 of its first operand, the whole of its
  second operand, and writes rows 5000·t … 5000·t + 4999 of the output.  The ten blocks tile the 50000 rows, so the
  output array ends as one whole-array function: for the matrix regions entry (r, c) is the sum over k of
  operand (r, k) · weights (k, c); for the bias regions it is entry (r, c) plus the bias row's entry c, for two of
  them then the larger of that and zero.
-/
import proofs.«112825_j71571335020554_1_alg».proof.Proof.Gen.KernelIdeal.Frame
import proofs.«112825_j71571335020554_1_alg».proof.Proof.Payloads

set_option maxRecDepth 16384

noncomputable section

namespace Cert.KernelIdeal.Closed

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- Rows times weights: entry (r, c) is the sum over k of a (r, k) · w (k, c). -/
def rowsTimes (a : S50000x128.Idx → Elt Ideal .f32) (w : S128x128.Idx → Elt Ideal .f32) : S50000x128.Idx → Elt Ideal .f32 :=
  fun i => ∑ k : Fin 128, a (ix2 (i 0) k) * w (ix2 k (i 1))

/-- Every row plus the bias row, then the larger of that and zero. -/
def addRowMax (a : S50000x128.Idx → Elt Ideal .f32) (b : S1x128.Idx → Elt Ideal .f32) : S50000x128.Idx → Elt Ideal .f32 :=
  fun i => max (a i + b (ix2 0 (i 1))) (Ideal.ofBits .f32 0x00000000#32)

/-- Every row plus the bias row. -/
def addRow (a : S50000x128.Idx → Elt Ideal .f32) (b : S1x128.Idx → Elt Ideal .f32) : S50000x128.Idx → Elt Ideal .f32 :=
  fun i => a i + b (ix2 0 (i 1))

theorem origin : (![0, 0] : Fin 2 → Nat) = fun _ => 0 := funext fun a => by fin_cases a <;> rfl

variable (V : (c : Dev nD) → (b : Ref sig .tc) → Buf (Elt Ideal) ((c : Thread nD τ).loc b))

/-! ## Region 0: rows of `main_arg0` times `main_arg2` into `main_v30` -/

/-- The index maps over the grid: the operand's and the output's block of point t is block t of the rows, the weights'
    is the one whole block. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the rows-times-weights array of the operands as the region finds them. -/
theorem flushed0 (c : Dev nD) (t : Fin cfg0.N) :
    (dat0 V c).flushed 2 t
      = ((cfg0.win 2).blk t).view.read (Elt Ideal) (rowsTimes (V c main_arg0) (V c main_arg2)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  obtain ⟨e0, e1, e2, e3, e4, e5⟩ := blocks0 t
  funext j
  have hj : j = ix2 (j 0) (j 1) := @eq_ix2 5000 128 j
  show k0_pay1 (F := Ideal) (iblk0 V c 0 t) (iblk0 V c 1 t) j
      = rowsTimes (V c main_arg0) (V c main_arg2) (((cfg0.win 2).blk t).view.emb j)
  refine (congrArg (k0_pay1 (F := Ideal) (iblk0 V c 0 t) (iblk0 V c 1 t)) hj).trans ?_
  refine (Body.pay0 (iblk0 V c 0 t) (iblk0 V c 1 t) (j 0) (j 1)).trans ?_
  unfold rowsTimes
  refine Finset.sum_congr rfl fun k _ => ?_
  have ha : ((cfg0.win 0).blk t).view.emb (ix2 (j 0) k) = ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hw : ((cfg0.win 1).blk t).view.emb (ix2 k (j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact congrArg₂ (fun (x y : Elt Ideal .f32) => x * y) (congrArg (V c main_arg0) ha) (congrArg (V c main_arg2) hw)

/-- An index of the output array is in point t's block iff each coordinate is in the block's range on its axis. -/
theorem inBlock0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The ten blocks tile the array: row r lies in the block of point r / 5000. -/
theorem tiled0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  let t : Fin cfg0.N := ⟨(i 0).val / 5000, by show (i 0).val / 5000 < grid0.N; omega⟩
  obtain ⟨e0, e1, e2, e3, e4, e5⟩ := blocks0 t
  have ht : t.val = (i 0).val / 5000 := rfl
  refine ⟨t, flush0_2 t, ?_⟩
  rw [inBlock0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after region 0: rows times weights of the operands as the region finds them. -/
theorem final0 (c : Dev nD) : (dat0 V c).arrAt 2 cfg0.N = rowsTimes (V c main_arg0) (V c main_arg2) :=
  (dat0 V c).arrAt_eq_of_cover 2 (rowsTimes (V c main_arg0) (V c main_arg2)) (fun t _ => flushed0 V c t) (tiled0)

/-! ## Region 1: every row of `main_v43` plus the bias row `main_v44`, then the larger of that and zero, into `main_v45` -/

/-- The index maps over the grid: the operand's and the output's block of point t is block t of the rows, the bias
    row's is the one whole block. -/
theorem blocks1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the biased array of the operands as the region finds them. -/
theorem flushed1 (c : Dev nD) (t : Fin cfg1.N) :
    (dat1 V c).flushed 2 t
      = ((cfg1.win 2).blk t).view.read (Elt Ideal) (addRowMax (V c main_v43) (V c main_v44)) := by
  show (cfg1.win 2).cut (grid1.coords t) ((dat1 V c).after 2 t) = _
  rw [after1_2]
  unfold out1_2
  rw [View.canon_unit_zero origin]
  simp only [View.ld_unit_zero (S := S5000x128) origin, View.ld_unit_zero (S := S1x128) origin]
  obtain ⟨e0, e1, e2, e3, e4, e5⟩ := blocks1 t
  funext j
  have hj : j = ix2 (j 0) (j 1) := @eq_ix2 5000 128 j
  show k1_pay1 (F := Ideal) (iblk1 V c 0 t) (iblk1 V c 1 t) j
      = addRowMax (V c main_v43) (V c main_v44) (((cfg1.win 2).blk t).view.emb j)
  refine (congrArg (k1_pay1 (F := Ideal) (iblk1 V c 0 t) (iblk1 V c 1 t)) hj).trans ?_
  refine (Body.pay1 (iblk1 V c 0 t) (iblk1 V c 1 t) (j 0) (j 1)).trans ?_
  unfold addRowMax
  have ha : ((cfg1.win 0).blk t).view.emb (ix2 (j 0) (j 1)) = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have hb : ((cfg1.win 1).blk t).view.emb (ix2 0 (j 1)) = ix2 0 ((((cfg1.win 2).blk t).view.emb j) 1) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  exact congrArg₂ (fun (x y : Elt Ideal .f32) => max (x + y) (Ideal.ofBits .f32 0x00000000#32)) (congrArg (V c main_v43) ha) (congrArg (V c main_v44) hb)

/-- An index of the output array is in point t's block iff each coordinate is in the block's range on its axis. -/
theorem inBlock1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- The ten blocks tile the array: row r lies in the block of point r / 5000. -/
theorem tiled1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 10 := N_1
  let t : Fin cfg1.N := ⟨(i 0).val / 5000, by show (i 0).val / 5000 < grid1.N; omega⟩
  obtain ⟨e0, e1, e2, e3, e4, e5⟩ := blocks1 t
  have ht : t.val = (i 0).val / 5000 := rfl
  refine ⟨t, flush1_2 t, ?_⟩
  rw [inBlock1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after region 1: the biased array of the operands as the region finds them. -/
theorem final1 (c : Dev nD) : (dat1 V c).arrAt 2 cfg1.N = addRowMax (V c main_v43) (V c main_v44) :=
  (dat1 V c).arrAt_eq_of_cover 2 (addRowMax (V c main_v43) (V c main_v44)) (fun t _ => flushed1 V c t) (tiled1)

/-! ## Region 2: rows of `main_v45` times `main_arg4` into `main_v46` -/

/-- The index maps over the grid: the operand's and the output's block of point t is block t of the rows, the weights'
    is the one whole block. -/
theorem blocks2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the rows-times-weights array of the operands as the region finds them. -/
theorem flushed2 (c : Dev nD) (t : Fin cfg2.N) :
    (dat2 V c).flushed 2 t
      = ((cfg2.win 2).blk t).view.read (Elt Ideal) (rowsTimes (V c main_v45) (V c main_arg4)) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x128) origin]
  obtain ⟨e0, e1, e2, e3, e4, e5⟩ := blocks2 t
  funext j
  have hj : j = ix2 (j 0) (j 1) := @eq_ix2 5000 128 j
  show k2_pay1 (F := Ideal) (iblk2 V c 0 t) (iblk2 V c 1 t) j
      = rowsTimes (V c main_v45) (V c main_arg4) (((cfg2.win 2).blk t).view.emb j)
  refine (congrArg (k2_pay1 (F := Ideal) (iblk2 V c 0 t) (iblk2 V c 1 t)) hj).trans ?_
  refine (Body.pay2 (iblk2 V c 0 t) (iblk2 V c 1 t) (j 0) (j 1)).trans ?_
  unfold rowsTimes
  refine Finset.sum_congr rfl fun k _ => ?_
  have ha : ((cfg2.win 0).blk t).view.emb (ix2 (j 0) k) = ix2 ((((cfg2.win 2).blk t).view.emb j) 0) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have hw : ((cfg2.win 1).blk t).view.emb (ix2 k (j 1)) = ix2 k ((((cfg2.win 2).blk t).view.emb j) 1) := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  exact congrArg₂ (fun (x y : Elt Ideal .f32) => x * y) (congrArg (V c main_v45) ha) (congrArg (V c main_arg4) hw)

/-- An index of the output array is in point t's block iff each coordinate is in the block's range on its axis. -/
theorem inBlock2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- The ten blocks tile the array: row r lies in the block of point r / 5000. -/
theorem tiled2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : grid2.N = 10 := N_2
  let t : Fin cfg2.N := ⟨(i 0).val / 5000, by show (i 0).val / 5000 < grid2.N; omega⟩
  obtain ⟨e0, e1, e2, e3, e4, e5⟩ := blocks2 t
  have ht : t.val = (i 0).val / 5000 := rfl
  refine ⟨t, flush2_2 t, ?_⟩
  rw [inBlock2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after region 2: rows times weights of the operands as the region finds them. -/
theorem final2 (c : Dev nD) : (dat2 V c).arrAt 2 cfg2.N = rowsTimes (V c main_v45) (V c main_arg4) :=
  (dat2 V c).arrAt_eq_of_cover 2 (rowsTimes (V c main_v45) (V c main_arg4)) (fun t _ => flushed2 V c t) (tiled2)

/-! ## Region 3: every row of `main_v59` plus the bias row `main_v60`, then the larger of that and zero, into `main_v61` -/

/-- The index maps over the grid: the operand's and the output's block of point t is block t of the rows, the bias
    row's is the one whole block. -/
theorem blocks3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the biased array of the operands as the region finds them. -/
theorem flushed3 (c : Dev nD) (t : Fin cfg3.N) :
    (dat3 V c).flushed 2 t
      = ((cfg3.win 2).blk t).view.read (Elt Ideal) (addRowMax (V c main_v59) (V c main_v60)) := by
  show (cfg3.win 2).cut (grid3.coords t) ((dat3 V c).after 2 t) = _
  rw [after3_2]
  unfold out3_2
  rw [View.canon_unit_zero origin]
  simp only [View.ld_unit_zero (S := S5000x128) origin, View.ld_unit_zero (S := S1x128) origin]
  obtain ⟨e0, e1, e2, e3, e4, e5⟩ := blocks3 t
  funext j
  have hj : j = ix2 (j 0) (j 1) := @eq_ix2 5000 128 j
  show k3_pay1 (F := Ideal) (iblk3 V c 0 t) (iblk3 V c 1 t) j
      = addRowMax (V c main_v59) (V c main_v60) (((cfg3.win 2).blk t).view.emb j)
  refine (congrArg (k3_pay1 (F := Ideal) (iblk3 V c 0 t) (iblk3 V c 1 t)) hj).trans ?_
  refine (Body.pay3 (iblk3 V c 0 t) (iblk3 V c 1 t) (j 0) (j 1)).trans ?_
  unfold addRowMax
  have ha : ((cfg3.win 0).blk t).view.emb (ix2 (j 0) (j 1)) = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have hb : ((cfg3.win 1).blk t).view.emb (ix2 0 (j 1)) = ix2 0 ((((cfg3.win 2).blk t).view.emb j) 1) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  exact congrArg₂ (fun (x y : Elt Ideal .f32) => max (x + y) (Ideal.ofBits .f32 0x00000000#32)) (congrArg (V c main_v59) ha) (congrArg (V c main_v60) hb)

/-- An index of the output array is in point t's block iff each coordinate is in the block's range on its axis. -/
theorem inBlock3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v61).slice (win3_2.rect t)).set ↔ _
  rw [View.set_slice_whole, Rect.mem_set_unit]
  exact Iff.rfl

/-- The ten blocks tile the array: row r lies in the block of point r / 5000. -/
theorem tiled3 (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  have hN : grid3.N = 10 := N_3
  let t : Fin cfg3.N := ⟨(i 0).val / 5000, by show (i 0).val / 5000 < grid3.N; omega⟩
  obtain ⟨e0, e1, e2, e3, e4, e5⟩ := blocks3 t
  have ht : t.val = (i 0).val / 5000 := rfl
  refine ⟨t, flush3_2 t, ?_⟩
  rw [inBlock3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array after region 3: the biased array of the operands as the region finds them. -/
theorem final3 (c : Dev nD) : (dat3 V c).arrAt 2 cfg3.N = addRowMax (V c main_v59) (V c main_v60) :=
  (dat3 V c).arrAt_eq_of_cover 2 (addRowMax (V c main_v59) (V c main_v60)) (fun t _ => flushed3 V c t) (tiled3)

/-! ## Region 4: rows of `main_v61` times `main_arg6` into `main_v62` -/

/-- The index maps over the grid: the operand's and the output's block of point t is block t of the rows, the weights'
    is the one whole block. -/
theorem blocks4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the rows-times-weights array of the operands as the region finds them. -/
theorem flushed4 (c : Dev nD) (t : Fin cfg4.N) :
    (dat4 V c).flushed 2 t
      = ((cfg4.win 2).blk t).view.read (Elt Ideal) (rowsTimes (V c main_v61) (V c main_arg6)) := by
  show (cfg4.win 2).cut (grid4.coords t) ((dat4 V c).after 2 t) = _
  rw [after4_2]
  unfold out4_2
  rw [View.canon_unit_zero origin]
  simp only [View.ld_unit_zero (S := S5000x128) origin, View.ld_unit_zero (S := S128x128) origin]
  obtain ⟨e0, e1, e2, e3, e4, e5⟩ := blocks4 t
  funext j
  have hj : j = ix2 (j 0) (j 1) := @eq_ix2 5000 128 j
  show k4_pay1 (F := Ideal) (iblk4 V c 0 t) (iblk4 V c 1 t) j
      = rowsTimes (V c main_v61) (V c main_arg6) (((cfg4.win 2).blk t).view.emb j)
  refine (congrArg (k4_pay1 (F := Ideal) (iblk4 V c 0 t) (iblk4 V c 1 t)) hj).trans ?_
  refine (Body.pay4 (iblk4 V c 0 t) (iblk4 V c 1 t) (j 0) (j 1)).trans ?_
  unfold rowsTimes
  refine Finset.sum_congr rfl fun k _ => ?_
  have ha : ((cfg4.win 0).blk t).view.emb (ix2 (j 0) k) = ix2 ((((cfg4.win 2).blk t).view.emb j) 0) k := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  have hw : ((cfg4.win 1).blk t).view.emb (ix2 k (j 1)) = ix2 k ((((cfg4.win 2).blk t).view.emb j) 1) := by
    funext a; apply Fin.ext
    match a with
    | ⟨0, _⟩ => show win4_1.index t (0 : Fin 2) * 128 + 1 * k.val = k.val; omega
    | ⟨1, _⟩ => show win4_1.index t (1 : Fin 2) * 128 + 1 * (j 1).val = win4_2.index t (1 : Fin 2) * 128 + 1 * (j 1).val; omega
  exact congrArg₂ (fun (x y : Elt Ideal .f32) => x * y) (congrArg (V c main_v61) ha) (congrArg (V c main_arg6) hw)

/-- An index of the output array is in point t's block iff each coordinate is in the block's range on its axis. -/
theorem inBlock4 (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v62).slice (win4_2.rect t)).set ↔ _
  rw [View.set_slice_whole, Rect.mem_set_unit]
  exact Iff.rfl

/-- The ten blocks tile the array: row r lies in the block of point r / 5000. -/
theorem tiled4 (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  have hN : grid4.N = 10 := N_4
  let t : Fin cfg4.N := ⟨(i 0).val / 5000, by show (i 0).val / 5000 < grid4.N; omega⟩
  obtain ⟨e0, e1, e2, e3, e4, e5⟩ := blocks4 t
  have ht : t.val = (i 0).val / 5000 := rfl
  refine ⟨t, flush4_2 t, ?_⟩
  rw [inBlock4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- The output array after region 4: rows times weights of the operands as the region finds them. -/
theorem final4 (c : Dev nD) : (dat4 V c).arrAt 2 cfg4.N = rowsTimes (V c main_v61) (V c main_arg6) :=
  (dat4 V c).arrAt_eq_of_cover 2 (rowsTimes (V c main_v61) (V c main_arg6)) (fun t _ => flushed4 V c t) (tiled4)

/-! ## Region 5: every row of `main_v75` plus the bias row `main_v76` into `main_v77` -/

/-- The index maps over the grid: the operand's and the output's block of point t is block t of the rows, the bias
    row's is the one whole block. -/
theorem blocks5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of the biased array of the operands as the region finds them. -/
theorem flushed5 (c : Dev nD) (t : Fin cfg5.N) :
    (dat5 V c).flushed 2 t
      = ((cfg5.win 2).blk t).view.read (Elt Ideal) (addRow (V c main_v75) (V c main_v76)) := by
  show (cfg5.win 2).cut (grid5.coords t) ((dat5 V c).after 2 t) = _
  rw [after5_2]
  unfold out5_2
  rw [View.canon_unit_zero origin]
  simp only [View.ld_unit_zero (S := S5000x128) origin, View.ld_unit_zero (S := S1x128) origin]
  obtain ⟨e0, e1, e2, e3, e4, e5⟩ := blocks5 t
  funext j
  have hj : j = ix2 (j 0) (j 1) := @eq_ix2 5000 128 j
  show k5_pay1 (F := Ideal) (iblk5 V c 0 t) (iblk5 V c 1 t) j
      = addRow (V c main_v75) (V c main_v76) (((cfg5.win 2).blk t).view.emb j)
  refine (congrArg (k5_pay1 (F := Ideal) (iblk5 V c 0 t) (iblk5 V c 1 t)) hj).trans ?_
  refine (Body.pay5 (iblk5 V c 0 t) (iblk5 V c 1 t) (j 0) (j 1)).trans ?_
  unfold addRow
  have ha : ((cfg5.win 0).blk t).view.emb (ix2 (j 0) (j 1)) = ((cfg5.win 2).blk t).view.emb j := by
    funext a; apply Fin.ext
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 128 + 1 * (j 1).val = win5_2.index t (1 : Fin 2) * 128 + 1 * (j 1).val; omega
  have hb : ((cfg5.win 1).blk t).view.emb (ix2 0 (j 1)) = ix2 0 ((((cfg5.win 2).blk t).view.emb j) 1) := by
    funext a; apply Fin.ext
    match a with
    | ⟨0, _⟩ => show win5_1.index t (0 : Fin 2) * 1 + 1 * 0 = 0; omega
    | ⟨1, _⟩ => show win5_1.index t (1 : Fin 2) * 128 + 1 * (j 1).val = win5_2.index t (1 : Fin 2) * 128 + 1 * (j 1).val; omega
  exact congrArg₂ (fun (x y : Elt Ideal .f32) => x + y) (congrArg (V c main_v75) ha) (congrArg (V c main_v76) hb)

/-- An index of the output array is in point t's block iff each coordinate is in the block's range on its axis. -/
theorem inBlock5 (t : Fin cfg5.N) (i : S50000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v77).slice (win5_2.rect t)).set ↔ _
  rw [View.set_slice_whole, Rect.mem_set_unit]
  exact Iff.rfl

/-- The ten blocks tile the array: row r lies in the block of point r / 5000. -/
theorem tiled5 (i : S50000x128.Idx) : ∃ t : Fin cfg5.N, (cfg5.win 2).flush t = true ∧ i ∈ ((cfg5.win 2).blk t).view.set := by
  have hi0 : (i 0).val < 50000 := (i 0).isLt
  have hi1 : (i 1).val < 128 := (i 1).isLt
  have hN : grid5.N = 10 := N_5
  let t : Fin cfg5.N := ⟨(i 0).val / 5000, by show (i 0).val / 5000 < grid5.N; omega⟩
  obtain ⟨e0, e1, e2, e3, e4, e5⟩ := blocks5 t
  have ht : t.val = (i 0).val / 5000 := rfl
  refine ⟨t, flush5_2 t, ?_⟩
  rw [inBlock5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- The output array after region 5: the biased array of the operands as the region finds them. -/
theorem final5 (c : Dev nD) : (dat5 V c).arrAt 2 cfg5.N = addRow (V c main_v75) (V c main_v76) :=
  (dat5 V c).arrAt_eq_of_cover 2 (addRow (V c main_v75) (V c main_v76)) (fun t _ => flushed5 V c t) (tiled5)

end Cert.KernelIdeal.Closed

end
-- ==== Proof.Spec.lean ====
/-
  The two programs' values as functions of the argument arrays, composed from the
  reference's own operations (stated at any float instance; read at the extended reals where used).

  Both programs first build, from the edge list, the source and destination indices with a self-loop per node
  appended (`srcs`, `dsts`), each node's degree (the number of edges arriving at it, a scatter-add of ones), its inverse
  square root where the degree is positive (`dinv`), and each edge's weight `nrm` = dinv(source) · dinv(destination).
  A layer then maps node features h to  act( A (h · W) + b )  where  A y = scatter-add over destinations of the
  gathered source rows of y, each scaled by its edge's weight (`aggOf`), and act is the larger of its argument and zero
  (absent in the last layer).  The reference computes  h · W  as one whole contraction (`dotR`) and the bias as two
  broadcasts (`biasR`).
-/
import proofs.«112825_j71571335020554_1_alg».proof.Proof.Gen.ReferenceIdeal
import Idealize.ShloMosaic.PureOps.Ideal

set_option maxRecDepth 8192

noncomputable section

namespace Cert.Spec

open Cert.ReferenceIdeal Cert.ReferenceIdeal.Gen Idealize.ShloMosaic Idealize.ShloMosaic.StableHlo

variable {F : FTy → Type} [FloatOps F]

/-- The edges' source nodes, then every node once (its self-loop). -/
def srcs (e : (⟨S2x800000, .i32⟩ : BufTy).Contents (Elt F)) : (⟨S850000, .i32⟩ : BufTy).Contents (Elt F) :=
  ((((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F))) (shapeCast _ ((((extractStridedSlice S1x800000 ![0, 0] · slices_S2x800000_S1x800000_0_0) : (⟨S2x800000, .i32⟩ : BufTy).Contents (Elt F) → (⟨S1x800000, .i32⟩ : BufTy).Contents (Elt F))) e : (⟨S1x800000, .i32⟩ : BufTy).Contents (Elt F)) shapeCasts_S1x800000_S800000 : (⟨S800000, .i32⟩ : BufTy).Contents (Elt F)) ((iotaInDim S50000 32 0) : (⟨S50000, .i32⟩ : BufTy).Contents (Elt F)) : (⟨S850000, .i32⟩ : BufTy).Contents (Elt F))

/-- The edges' destination nodes, then every node once (its self-loop). -/
def dsts (e : (⟨S2x800000, .i32⟩ : BufTy).Contents (Elt F)) : (⟨S850000, .i32⟩ : BufTy).Contents (Elt F) :=
  ((((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F))) (shapeCast _ ((((extractStridedSlice S1x800000 ![1, 0] · slices_S2x800000_S1x800000_1_0) : (⟨S2x800000, .i32⟩ : BufTy).Contents (Elt F) → (⟨S1x800000, .i32⟩ : BufTy).Contents (Elt F))) e : (⟨S1x800000, .i32⟩ : BufTy).Contents (Elt F)) shapeCasts_S1x800000_S800000 : (⟨S800000, .i32⟩ : BufTy).Contents (Elt F)) ((iotaInDim S50000 32 0) : (⟨S50000, .i32⟩ : BufTy).Contents (Elt F)) : (⟨S850000, .i32⟩ : BufTy).Contents (Elt F))

/-- Each node's degree: one added at its position for every entry of the destinations. -/
def deg (d : (⟨S850000, .i32⟩ : BufTy).Contents (Elt F)) : (⟨S50000, .f32⟩ : BufTy).Contents (Elt F) :=
  ((((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F))) (((broadcastInDim S50000 ![] bcast_S_S50000 : (⟨S_, .f32⟩ : BufTy).Contents (Elt F) → (⟨S50000, .f32⟩ : BufTy).Contents (Elt F))) ((constant S_ .f32 0x00000000#32) : (⟨S_, .f32⟩ : BufTy).Contents (Elt F)) : (⟨S50000, .f32⟩ : BufTy).Contents (Elt F)) (((broadcastInDim S850000x1 ![0] bcast_S850000_S850000x1_0 : (⟨S850000, .i32⟩ : BufTy).Contents (Elt F) → (⟨S850000x1, .i32⟩ : BufTy).Contents (Elt F))) d : (⟨S850000x1, .i32⟩ : BufTy).Contents (Elt F)) (((broadcastInDim S850000 ![] bcast_S_S850000 : (⟨S_, .f32⟩ : BufTy).Contents (Elt F) → (⟨S850000, .f32⟩ : BufTy).Contents (Elt F))) ((constant S_ .f32 0x3F800000#32) : (⟨S_, .f32⟩ : BufTy).Contents (Elt F)) : (⟨S850000, .f32⟩ : BufTy).Contents (Elt F)) : (⟨S50000, .f32⟩ : BufTy).Contents (Elt F))

/-- Where the degree is positive. -/
def posOf (d : (⟨S850000, .i32⟩ : BufTy).Contents (Elt F)) : (⟨S50000, .i1⟩ : BufTy).Contents (Elt F) :=
  (((cmpf .ogt : (⟨S50000, .f32⟩ : BufTy).Contents (Elt F) → (⟨S50000, .f32⟩ : BufTy).Contents (Elt F) → (⟨S50000, .i1⟩ : BufTy).Contents (Elt F))) (deg (F := F) d) (((broadcastInDim S50000 ![] bcast_S_S50000 : (⟨S_, .f32⟩ : BufTy).Contents (Elt F) → (⟨S50000, .f32⟩ : BufTy).Contents (Elt F))) ((constant S_ .f32 0x00000000#32) : (⟨S_, .f32⟩ : BufTy).Contents (Elt F)) : (⟨S50000, .f32⟩ : BufTy).Contents (Elt F)) : (⟨S50000, .i1⟩ : BufTy).Contents (Elt F))

/-- The inverse square root of the degree. -/
def rsqOf (d : (⟨S850000, .i32⟩ : BufTy).Contents (Elt F)) : (⟨S50000, .f32⟩ : BufTy).Contents (Elt F) :=
  (((Host.rsqrt : (⟨S50000, .f32⟩ : BufTy).Contents (Elt F) → (⟨S50000, .f32⟩ : BufTy).Contents (Elt F))) (deg (F := F) d) : (⟨S50000, .f32⟩ : BufTy).Contents (Elt F))

/-- The scalar zero the selection falls back to. -/
def zero0 : (⟨S_, .f32⟩ : BufTy).Contents (Elt F) :=
  ((constant S_ .f32 0x00000000#32) : (⟨S_, .f32⟩ : BufTy).Contents (Elt F))

/-- The selection: `r` where `p` holds, the scalar `z` spread over the nodes elsewhere. -/
def whereOf (p : (⟨S50000, .i1⟩ : BufTy).Contents (Elt F)) (r : (⟨S50000, .f32⟩ : BufTy).Contents (Elt F)) (z : (⟨S_, .f32⟩ : BufTy).Contents (Elt F)) : (⟨S50000, .f32⟩ : BufTy).Contents (Elt F) :=
  ((select) p r (((broadcastInDim S50000 ![] bcast_S_S50000)) ((id) z : (⟨S_, .f32⟩ : BufTy).Contents (Elt F)) : (⟨S50000, .f32⟩ : BufTy).Contents (Elt F)) : (⟨S50000, .f32⟩ : BufTy).Contents (Elt F))

/-- The inverse square root of the degree where it is positive, zero elsewhere. -/
def dinv (d : (⟨S850000, .i32⟩ : BufTy).Contents (Elt F)) : (⟨S50000, .f32⟩ : BufTy).Contents (Elt F) :=
  whereOf (F := F) (posOf (F := F) d) (rsqOf (F := F) d) (zero0 (F := F))

/-- Each edge's weight from the per-node factors `v`: the factor of its source times that of its destination (an index
    below zero is read from the end, as the programs' gathers spell it). -/
def nrmOf (s d : (⟨S850000, .i32⟩ : BufTy).Contents (Elt F)) (v : (⟨S50000, .f32⟩ : BufTy).Contents (Elt F)) : (⟨S850000, .f32⟩ : BufTy).Contents (Elt F) :=
  (((mulf : (⟨S850000, .f32⟩ : BufTy).Contents (Elt F) → (⟨S850000, .f32⟩ : BufTy).Contents (Elt F) → (⟨S850000, .f32⟩ : BufTy).Contents (Elt F))) ((((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F))) v (((broadcastInDim S850000x1 ![0] bcast_S850000_S850000x1_0 : (⟨S850000, .i32⟩ : BufTy).Contents (Elt F) → (⟨S850000x1, .i32⟩ : BufTy).Contents (Elt F))) (((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))) (((cmpi .slt : (⟨S850000, .i32⟩ : BufTy).Contents (Elt F) → (⟨S850000, .i32⟩ : BufTy).Contents (Elt F) → (⟨S850000, .i1⟩ : BufTy).Contents (Elt F))) s (((broadcastInDim S850000 ![] bcast_S_S850000 : (⟨S_, .i32⟩ : BufTy).Contents (Elt F) → (⟨S850000, .i32⟩ : BufTy).Contents (Elt F))) ((constantI S_ 32 0#32) : (⟨S_, .i32⟩ : BufTy).Contents (Elt F)) : (⟨S850000, .i32⟩ : BufTy).Contents (Elt F)) : (⟨S850000, .i1⟩ : BufTy).Contents (Elt F)) (((addi : (⟨S850000, .i32⟩ : BufTy).Contents (Elt F) → (⟨S850000, .i32⟩ : BufTy).Contents (Elt F) → (⟨S850000, .i32⟩ : BufTy).Contents (Elt F))) s (((broadcastInDim S850000 ![] bcast_S_S850000 : (⟨S_, .i32⟩ : BufTy).Contents (Elt F) → (⟨S850000, .i32⟩ : BufTy).Contents (Elt F))) ((constantI S_ 32 50000#32) : (⟨S_, .i32⟩ : BufTy).Contents (Elt F)) : (⟨S850000, .i32⟩ : BufTy).Contents (Elt F)) : (⟨S850000, .i32⟩ : BufTy).Contents (Elt F)) s : (⟨S850000, .i32⟩ : BufTy).Contents (Elt F)) : (⟨S850000x1, .i32⟩ : BufTy).Contents (Elt F)) : (⟨S850000, .f32⟩ : BufTy).Contents (Elt F)) ((((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F))) v (((broadcastInDim S850000x1 ![0] bcast_S850000_S850000x1_0 : (⟨S850000, .i32⟩ : BufTy).Contents (Elt F) → (⟨S850000x1, .i32⟩ : BufTy).Contents (Elt F))) (((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))) (((cmpi .slt : (⟨S850000, .i32⟩ : BufTy).Contents (Elt F) → (⟨S850000, .i32⟩ : BufTy).Contents (Elt F) → (⟨S850000, .i1⟩ : BufTy).Contents (Elt F))) d (((broadcastInDim S850000 ![] bcast_S_S850000 : (⟨S_, .i32⟩ : BufTy).Contents (Elt F) → (⟨S850000, .i32⟩ : BufTy).Contents (Elt F))) ((constantI S_ 32 0#32) : (⟨S_, .i32⟩ : BufTy).Contents (Elt F)) : (⟨S850000, .i32⟩ : BufTy).Contents (Elt F)) : (⟨S850000, .i1⟩ : BufTy).Contents (Elt F)) (((addi : (⟨S850000, .i32⟩ : BufTy).Contents (Elt F) → (⟨S850000, .i32⟩ : BufTy).Contents (Elt F) → (⟨S850000, .i32⟩ : BufTy).Contents (Elt F))) d (((broadcastInDim S850000 ![] bcast_S_S850000 : (⟨S_, .i32⟩ : BufTy).Contents (Elt F) → (⟨S850000, .i32⟩ : BufTy).Contents (Elt F))) ((constantI S_ 32 50000#32) : (⟨S_, .i32⟩ : BufTy).Contents (Elt F)) : (⟨S850000, .i32⟩ : BufTy).Contents (Elt F)) : (⟨S850000, .i32⟩ : BufTy).Contents (Elt F)) d : (⟨S850000, .i32⟩ : BufTy).Contents (Elt F)) : (⟨S850000x1, .i32⟩ : BufTy).Contents (Elt F)) : (⟨S850000, .f32⟩ : BufTy).Contents (Elt F)) : (⟨S850000, .f32⟩ : BufTy).Contents (Elt F))

/-- Each edge's weight: the inverse root degree of its source times that of its destination. -/
def nrm (s d : (⟨S850000, .i32⟩ : BufTy).Contents (Elt F)) : (⟨S850000, .f32⟩ : BufTy).Contents (Elt F) :=
  nrmOf (F := F) s d (dinv (F := F) d)

/-- The aggregation: for every edge the source's row of `h` scaled by the edge's weight, added into the destination's row. -/
def aggOf (s d : (⟨S850000, .i32⟩ : BufTy).Contents (Elt F)) (n : (⟨S850000, .f32⟩ : BufTy).Contents (Elt F)) (h : (⟨S50000x128, .f32⟩ : BufTy).Contents (Elt F)) : (⟨S50000x128, .f32⟩ : BufTy).Contents (Elt F) :=
  ((((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F))) (((broadcastInDim S50000x128 ![] bcast_S_S50000x128 : (⟨S_, .f32⟩ : BufTy).Contents (Elt F) → (⟨S50000x128, .f32⟩ : BufTy).Contents (Elt F))) ((constant S_ .f32 0x00000000#32) : (⟨S_, .f32⟩ : BufTy).Contents (Elt F)) : (⟨S50000x128, .f32⟩ : BufTy).Contents (Elt F)) (((broadcastInDim S850000x1 ![0] bcast_S850000_S850000x1_0 : (⟨S850000, .i32⟩ : BufTy).Contents (Elt F) → (⟨S850000x1, .i32⟩ : BufTy).Contents (Elt F))) d : (⟨S850000x1, .i32⟩ : BufTy).Contents (Elt F)) (((mulf : (⟨S850000x128, .f32⟩ : BufTy).Contents (Elt F) → (⟨S850000x128, .f32⟩ : BufTy).Contents (Elt F) → (⟨S850000x128, .f32⟩ : BufTy).Contents (Elt F))) ((((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F))) h (((broadcastInDim S850000x1 ![0] bcast_S850000_S850000x1_0 : (⟨S850000, .i32⟩ : BufTy).Contents (Elt F) → (⟨S850000x1, .i32⟩ : BufTy).Contents (Elt F))) (((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))) (((cmpi .slt : (⟨S850000, .i32⟩ : BufTy).Contents (Elt F) → (⟨S850000, .i32⟩ : BufTy).Contents (Elt F) → (⟨S850000, .i1⟩ : BufTy).Contents (Elt F))) s (((broadcastInDim S850000 ![] bcast_S_S850000 : (⟨S_, .i32⟩ : BufTy).Contents (Elt F) → (⟨S850000, .i32⟩ : BufTy).Contents (Elt F))) ((constantI S_ 32 0#32) : (⟨S_, .i32⟩ : BufTy).Contents (Elt F)) : (⟨S850000, .i32⟩ : BufTy).Contents (Elt F)) : (⟨S850000, .i1⟩ : BufTy).Contents (Elt F)) (((addi : (⟨S850000, .i32⟩ : BufTy).Contents (Elt F) → (⟨S850000, .i32⟩ : BufTy).Contents (Elt F) → (⟨S850000, .i32⟩ : BufTy).Contents (Elt F))) s (((broadcastInDim S850000 ![] bcast_S_S850000 : (⟨S_, .i32⟩ : BufTy).Contents (Elt F) → (⟨S850000, .i32⟩ : BufTy).Contents (Elt F))) ((constantI S_ 32 50000#32) : (⟨S_, .i32⟩ : BufTy).Contents (Elt F)) : (⟨S850000, .i32⟩ : BufTy).Contents (Elt F)) : (⟨S850000, .i32⟩ : BufTy).Contents (Elt F)) s : (⟨S850000, .i32⟩ : BufTy).Contents (Elt F)) : (⟨S850000x1, .i32⟩ : BufTy).Contents (Elt F)) : (⟨S850000x128, .f32⟩ : BufTy).Contents (Elt F)) (((broadcastInDim S850000x128 ![0, 1] bcast_S850000x1_S850000x128_0_1 : (⟨S850000x1, .f32⟩ : BufTy).Contents (Elt F) → (⟨S850000x128, .f32⟩ : BufTy).Contents (Elt F))) (((broadcastInDim S850000x1 ![0] bcast_S850000_S850000x1_0 : (⟨S850000, .f32⟩ : BufTy).Contents (Elt F) → (⟨S850000x1, .f32⟩ : BufTy).Contents (Elt F))) n : (⟨S850000x1, .f32⟩ : BufTy).Contents (Elt F)) : (⟨S850000x128, .f32⟩ : BufTy).Contents (Elt F)) : (⟨S850000x128, .f32⟩ : BufTy).Contents (Elt F)) : (⟨S50000x128, .f32⟩ : BufTy).Contents (Elt F))

/-- Node features times a weight matrix, as one whole contraction. -/
def dotR (h : (⟨S50000x128, .f32⟩ : BufTy).Contents (Elt F)) (w : (⟨S128x128, .f32⟩ : BufTy).Contents (Elt F)) : (⟨S50000x128, .f32⟩ : BufTy).Contents (Elt F) :=
  ((((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))) h w : (⟨S50000x128, .f32⟩ : BufTy).Contents (Elt F))

/-- The bias spread over all rows, as the reference spells it: to one row, then to every row. -/
def biasR (b : (⟨S128, .f32⟩ : BufTy).Contents (Elt F)) : (⟨S50000x128, .f32⟩ : BufTy).Contents (Elt F) :=
  (((broadcastInDim S50000x128 ![0, 1] bcast_S1x128_S50000x128_0_1 : (⟨S1x128, .f32⟩ : BufTy).Contents (Elt F) → (⟨S50000x128, .f32⟩ : BufTy).Contents (Elt F))) (((broadcastInDim S1x128 ![1] bcast_S128_S1x128_1 : (⟨S128, .f32⟩ : BufTy).Contents (Elt F) → (⟨S1x128, .f32⟩ : BufTy).Contents (Elt F))) b : (⟨S1x128, .f32⟩ : BufTy).Contents (Elt F)) : (⟨S50000x128, .f32⟩ : BufTy).Contents (Elt F))

/-- The all-zero array the reference's activation compares with. -/
def zeroR : (⟨S50000x128, .f32⟩ : BufTy).Contents (Elt F) :=
  (((broadcastInDim S50000x128 ![] bcast_S_S50000x128)) ((constant S_ .f32 0x00000000#32) : (⟨S_, .f32⟩ : BufTy).Contents (Elt F)) : (⟨S50000x128, .f32⟩ : BufTy).Contents (Elt F))

/-- One of the reference's first two layers. -/
def refLayer (s d : (⟨S850000, .i32⟩ : BufTy).Contents (Elt F)) (n : (⟨S850000, .f32⟩ : BufTy).Contents (Elt F)) (h : (⟨S50000x128, .f32⟩ : BufTy).Contents (Elt F)) (w : (⟨S128x128, .f32⟩ : BufTy).Contents (Elt F)) (b : (⟨S128, .f32⟩ : BufTy).Contents (Elt F)) : (⟨S50000x128, .f32⟩ : BufTy).Contents (Elt F) :=
  ((maximumf) (((addf : (⟨S50000x128, .f32⟩ : BufTy).Contents (Elt F) → (⟨S50000x128, .f32⟩ : BufTy).Contents (Elt F) → (⟨S50000x128, .f32⟩ : BufTy).Contents (Elt F))) (aggOf (F := F) s d n (dotR (F := F) h w)) (biasR (F := F) b) : (⟨S50000x128, .f32⟩ : BufTy).Contents (Elt F)) (zeroR (F := F)) : (⟨S50000x128, .f32⟩ : BufTy).Contents (Elt F))

/-- The reference's last layer: no activation. -/
def refLast (s d : (⟨S850000, .i32⟩ : BufTy).Contents (Elt F)) (n : (⟨S850000, .f32⟩ : BufTy).Contents (Elt F)) (h : (⟨S50000x128, .f32⟩ : BufTy).Contents (Elt F)) (w : (⟨S128x128, .f32⟩ : BufTy).Contents (Elt F)) (b : (⟨S128, .f32⟩ : BufTy).Contents (Elt F)) : (⟨S50000x128, .f32⟩ : BufTy).Contents (Elt F) :=
  (((addf : (⟨S50000x128, .f32⟩ : BufTy).Contents (Elt F) → (⟨S50000x128, .f32⟩ : BufTy).Contents (Elt F) → (⟨S50000x128, .f32⟩ : BufTy).Contents (Elt F))) (aggOf (F := F) s d n (dotR (F := F) h w)) (biasR (F := F) b) : (⟨S50000x128, .f32⟩ : BufTy).Contents (Elt F))

/-- The reference's result as a function of its eight arguments. -/
def refVal (x : (⟨S50000x128, .f32⟩ : BufTy).Contents (Elt F)) (e : (⟨S2x800000, .i32⟩ : BufTy).Contents (Elt F)) (w0 : (⟨S128x128, .f32⟩ : BufTy).Contents (Elt F)) (b0 : (⟨S128, .f32⟩ : BufTy).Contents (Elt F))
    (w1 : (⟨S128x128, .f32⟩ : BufTy).Contents (Elt F)) (b1 : (⟨S128, .f32⟩ : BufTy).Contents (Elt F)) (w2 : (⟨S128x128, .f32⟩ : BufTy).Contents (Elt F)) (b2 : (⟨S128, .f32⟩ : BufTy).Contents (Elt F)) : (⟨S50000x128, .f32⟩ : BufTy).Contents (Elt F) :=
  refLast (F := F) (srcs (F := F) e) (dsts (F := F) e) (nrm (F := F) (srcs (F := F) e) (dsts (F := F) e))
    (refLayer (F := F) (srcs (F := F) e) (dsts (F := F) e) (nrm (F := F) (srcs (F := F) e) (dsts (F := F) e))
      (refLayer (F := F) (srcs (F := F) e) (dsts (F := F) e) (nrm (F := F) (srcs (F := F) e) (dsts (F := F) e)) x w0 b0) w1 b1) w2 b2

end Cert.Spec

end
-- ==== Proof.KernelSpec.lean ====
/-
  The kernel's value as a function of the argument arrays, on the extended reals.

  A layer of the kernel maps node features h to  act( A (h ⋆ W) + row b )  with the same aggregation A as the
  reference, where  h ⋆ W  is the rows-times-weights array the matrix regions leave (ten blocks of rows, each
  multiplied into a zero accumulator), `row b` is the bias re-laid as one row of 128 entries and added to every row
  inside the bias regions, and act is the larger of its argument and zero (absent in the last layer).
-/
import proofs.«112825_j71571335020554_1_alg».proof.Proof.Spec
import proofs.«112825_j71571335020554_1_alg».proof.Proof.Blocks

noncomputable section

namespace Cert.Spec

open Idealize.ShloMosaic Cert.KernelIdeal Cert.KernelIdeal.Gen

/-- The bias of 128 entries re-laid as one row. -/
def asRow (b : (⟨S128, .f32⟩ : BufTy).Contents (Elt Ideal)) : (⟨S1x128, .f32⟩ : BufTy).Contents (Elt Ideal) :=
  shapeCast _ b shapeCasts_S128_S1x128

/-- One of the kernel's first two layers. -/
def kerLayer (s d : (⟨S850000, .i32⟩ : BufTy).Contents (Elt Ideal)) (n : (⟨S850000, .f32⟩ : BufTy).Contents (Elt Ideal)) (h : (⟨S50000x128, .f32⟩ : BufTy).Contents (Elt Ideal)) (w : (⟨S128x128, .f32⟩ : BufTy).Contents (Elt Ideal)) (b : (⟨S128, .f32⟩ : BufTy).Contents (Elt Ideal)) : (⟨S50000x128, .f32⟩ : BufTy).Contents (Elt Ideal) :=
  Cert.KernelIdeal.Closed.addRowMax (aggOf (F := Ideal) s d n (Cert.KernelIdeal.Closed.rowsTimes h w)) (asRow b)

/-- The kernel's last layer: no activation. -/
def kerLast (s d : (⟨S850000, .i32⟩ : BufTy).Contents (Elt Ideal)) (n : (⟨S850000, .f32⟩ : BufTy).Contents (Elt Ideal)) (h : (⟨S50000x128, .f32⟩ : BufTy).Contents (Elt Ideal)) (w : (⟨S128x128, .f32⟩ : BufTy).Contents (Elt Ideal)) (b : (⟨S128, .f32⟩ : BufTy).Contents (Elt Ideal)) : (⟨S50000x128, .f32⟩ : BufTy).Contents (Elt Ideal) :=
  Cert.KernelIdeal.Closed.addRow (aggOf (F := Ideal) s d n (Cert.KernelIdeal.Closed.rowsTimes h w)) (asRow b)

/-- The kernel's result as a function of its eight arguments. -/
def kerVal (x : (⟨S50000x128, .f32⟩ : BufTy).Contents (Elt Ideal)) (e : (⟨S2x800000, .i32⟩ : BufTy).Contents (Elt Ideal)) (w0 : (⟨S128x128, .f32⟩ : BufTy).Contents (Elt Ideal)) (b0 : (⟨S128, .f32⟩ : BufTy).Contents (Elt Ideal))
    (w1 : (⟨S128x128, .f32⟩ : BufTy).Contents (Elt Ideal)) (b1 : (⟨S128, .f32⟩ : BufTy).Contents (Elt Ideal)) (w2 : (⟨S128x128, .f32⟩ : BufTy).Contents (Elt Ideal)) (b2 : (⟨S128, .f32⟩ : BufTy).Contents (Elt Ideal)) : (⟨S50000x128, .f32⟩ : BufTy).Contents (Elt Ideal) :=
  kerLast (srcs (F := Ideal) e) (dsts (F := Ideal) e) (nrm (F := Ideal) (srcs (F := Ideal) e) (dsts (F := Ideal) e))
    (kerLayer (srcs (F := Ideal) e) (dsts (F := Ideal) e) (nrm (F := Ideal) (srcs (F := Ideal) e) (dsts (F := Ideal) e))
      (kerLayer (srcs (F := Ideal) e) (dsts (F := Ideal) e) (nrm (F := Ideal) (srcs (F := Ideal) e) (dsts (F := Ideal) e)) x w0 b0) w1 b1) w2 b2

end Cert.Spec

end
-- ==== Proof.StretchA.lean ====
/-
  The kernel's first two stretches of host operations, over any buffer contents V: the source and destination indices
  with the self-loops appended, where the degree is positive and its inverse root, the scalar zero; then the selection
  of the per-node factors.  No operation of either stretch writes an argument or, in the second, an index array.
-/
import proofs.«112825_j71571335020554_1_alg».proof.Proof.Gen.KernelIdeal.Launch
import proofs.«112825_j71571335020554_1_alg».proof.Proof.KernelSpec
import Idealize.ShloMosaic.Lib.StableHlo.Run

set_option maxRecDepth 16384

noncomputable section

namespace Cert.KernelIdeal.StretchA

open Idealize.ShloMosaic Idealize.ShloMosaic.TcCoe Idealize.SL.Sem Idealize.ShloMosaic.StableHlo
open Cert.KernelIdeal Cert.KernelIdeal.Gen

variable (V : Valuation τ sig (Elt Ideal))

/-! ## The indices, the degree's sign and inverse root -/

theorem s0_v5 : after (hostOps0 (F := Ideal)) V (Proc.devRef .tc main_v5) = Cert.Spec.srcs (F := Ideal) (V (Proc.devRef .tc main_arg1)) := by
  dsimp only [hostOps0]
  after_results <;> rfl

theorem s0_v6 : after (hostOps0 (F := Ideal)) V (Proc.devRef .tc main_v6) = Cert.Spec.dsts (F := Ideal) (V (Proc.devRef .tc main_arg1)) := by
  dsimp only [hostOps0]
  after_results <;> rfl

theorem s0_v12 : after (hostOps0 (F := Ideal)) V (Proc.devRef .tc main_v12) = Cert.Spec.posOf (F := Ideal) (Cert.Spec.dsts (F := Ideal) (V (Proc.devRef .tc main_arg1))) := by
  dsimp only [hostOps0]
  after_results <;> rfl

theorem s0_v13 : after (hostOps0 (F := Ideal)) V (Proc.devRef .tc main_v13) = Cert.Spec.rsqOf (F := Ideal) (Cert.Spec.dsts (F := Ideal) (V (Proc.devRef .tc main_arg1))) := by
  dsimp only [hostOps0]
  after_results <;> rfl

theorem s0_cst_2 : after (hostOps0 (F := Ideal)) V (Proc.devRef .tc main_cst_2) = Cert.Spec.zero0 (F := Ideal) := by
  dsimp only [hostOps0]
  after_results <;> rfl

theorem s0_keep_arg1 : after (hostOps0 (F := Ideal)) V (Proc.devRef .tc main_arg1) = V (Proc.devRef .tc main_arg1) := by
  dsimp only [hostOps0]
  after_results <;> rfl

theorem s0_keep_arg0 : after (hostOps0 (F := Ideal)) V (Proc.devRef .tc main_arg0) = V (Proc.devRef .tc main_arg0) := by
  dsimp only [hostOps0]
  after_results <;> rfl

theorem s0_keep_arg2 : after (hostOps0 (F := Ideal)) V (Proc.devRef .tc main_arg2) = V (Proc.devRef .tc main_arg2) := by
  dsimp only [hostOps0]
  after_results <;> rfl

theorem s0_keep_arg3 : after (hostOps0 (F := Ideal)) V (Proc.devRef .tc main_arg3) = V (Proc.devRef .tc main_arg3) := by
  dsimp only [hostOps0]
  after_results <;> rfl

theorem s0_keep_arg4 : after (hostOps0 (F := Ideal)) V (Proc.devRef .tc main_arg4) = V (Proc.devRef .tc main_arg4) := by
  dsimp only [hostOps0]
  after_results <;> rfl

theorem s0_keep_arg5 : after (hostOps0 (F := Ideal)) V (Proc.devRef .tc main_arg5) = V (Proc.devRef .tc main_arg5) := by
  dsimp only [hostOps0]
  after_results <;> rfl

theorem s0_keep_arg6 : after (hostOps0 (F := Ideal)) V (Proc.devRef .tc main_arg6) = V (Proc.devRef .tc main_arg6) := by
  dsimp only [hostOps0]
  after_results <;> rfl

theorem s0_keep_arg7 : after (hostOps0 (F := Ideal)) V (Proc.devRef .tc main_arg7) = V (Proc.devRef .tc main_arg7) := by
  dsimp only [hostOps0]
  after_results <;> rfl

/-! ## The per-node factors -/

theorem s1_v14 : after (hostOps0_1 (F := Ideal)) V (Proc.devRef .tc main_v14) = Cert.Spec.whereOf (F := Ideal) (V (Proc.devRef .tc main_v12)) (V (Proc.devRef .tc main_v13)) (V (Proc.devRef .tc main_cst_2)) := by
  dsimp only [hostOps0_1]
  after_results <;> rfl

theorem s1_keep_v5 : after (hostOps0_1 (F := Ideal)) V (Proc.devRef .tc main_v5) = V (Proc.devRef .tc main_v5) := by
  dsimp only [hostOps0_1]
  after_results <;> rfl

theorem s1_keep_v6 : after (hostOps0_1 (F := Ideal)) V (Proc.devRef .tc main_v6) = V (Proc.devRef .tc main_v6) := by
  dsimp only [hostOps0_1]
  after_results <;> rfl

theorem s1_keep_arg0 : after (hostOps0_1 (F := Ideal)) V (Proc.devRef .tc main_arg0) = V (Proc.devRef .tc main_arg0) := by
  dsimp only [hostOps0_1]
  after_results <;> rfl

theorem s1_keep_arg2 : after (hostOps0_1 (F := Ideal)) V (Proc.devRef .tc main_arg2) = V (Proc.devRef .tc main_arg2) := by
  dsimp only [hostOps0_1]
  after_results <;> rfl

theorem s1_keep_arg3 : after (hostOps0_1 (F := Ideal)) V (Proc.devRef .tc main_arg3) = V (Proc.devRef .tc main_arg3) := by
  dsimp only [hostOps0_1]
  after_results <;> rfl

theorem s1_keep_arg4 : after (hostOps0_1 (F := Ideal)) V (Proc.devRef .tc main_arg4) = V (Proc.devRef .tc main_arg4) := by
  dsimp only [hostOps0_1]
  after_results <;> rfl

theorem s1_keep_arg5 : after (hostOps0_1 (F := Ideal)) V (Proc.devRef .tc main_arg5) = V (Proc.devRef .tc main_arg5) := by
  dsimp only [hostOps0_1]
  after_results <;> rfl

theorem s1_keep_arg6 : after (hostOps0_1 (F := Ideal)) V (Proc.devRef .tc main_arg6) = V (Proc.devRef .tc main_arg6) := by
  dsimp only [hostOps0_1]
  after_results <;> rfl

theorem s1_keep_arg7 : after (hostOps0_1 (F := Ideal)) V (Proc.devRef .tc main_arg7) = V (Proc.devRef .tc main_arg7) := by
  dsimp only [hostOps0_1]
  after_results <;> rfl

end Cert.KernelIdeal.StretchA

end
-- ==== Proof.StretchB.lean ====
/-
  The kernel's third stretch of host operations, over any buffer contents V: each edge's weight from the per-node
  factors.  No operation of it writes an index array or an argument.
-/
import proofs.«112825_j71571335020554_1_alg».proof.Proof.Gen.KernelIdeal.Launch
import proofs.«112825_j71571335020554_1_alg».proof.Proof.KernelSpec
import Idealize.ShloMosaic.Lib.StableHlo.Run

set_option maxRecDepth 16384

noncomputable section

namespace Cert.KernelIdeal.StretchB

open Idealize.ShloMosaic Idealize.ShloMosaic.TcCoe Idealize.SL.Sem Idealize.ShloMosaic.StableHlo
open Cert.KernelIdeal Cert.KernelIdeal.Gen

variable (V : Valuation τ sig (Elt Ideal))

/-! ## The edge weights -/

set_option maxHeartbeats 16000000 in
theorem s2_v29 : after (hostOps0_2 (F := Ideal)) V (Proc.devRef .tc main_v29) = Cert.Spec.nrmOf (F := Ideal) (V (Proc.devRef .tc main_v5)) (V (Proc.devRef .tc main_v6)) (V (Proc.devRef .tc main_v14)) := by
  dsimp only [hostOps0_2]
  after_results <;> rfl

theorem s2_keep_v5 : after (hostOps0_2 (F := Ideal)) V (Proc.devRef .tc main_v5) = V (Proc.devRef .tc main_v5) := by
  dsimp only [hostOps0_2]
  after_results <;> rfl

theorem s2_keep_v6 : after (hostOps0_2 (F := Ideal)) V (Proc.devRef .tc main_v6) = V (Proc.devRef .tc main_v6) := by
  dsimp only [hostOps0_2]
  after_results <;> rfl

theorem s2_keep_arg0 : after (hostOps0_2 (F := Ideal)) V (Proc.devRef .tc main_arg0) = V (Proc.devRef .tc main_arg0) := by
  dsimp only [hostOps0_2]
  after_results <;> rfl

theorem s2_keep_arg2 : after (hostOps0_2 (F := Ideal)) V (Proc.devRef .tc main_arg2) = V (Proc.devRef .tc main_arg2) := by
  dsimp only [hostOps0_2]
  after_results <;> rfl

theorem s2_keep_arg3 : after (hostOps0_2 (F := Ideal)) V (Proc.devRef .tc main_arg3) = V (Proc.devRef .tc main_arg3) := by
  dsimp only [hostOps0_2]
  after_results <;> rfl

theorem s2_keep_arg4 : after (hostOps0_2 (F := Ideal)) V (Proc.devRef .tc main_arg4) = V (Proc.devRef .tc main_arg4) := by
  dsimp only [hostOps0_2]
  after_results <;> rfl

theorem s2_keep_arg5 : after (hostOps0_2 (F := Ideal)) V (Proc.devRef .tc main_arg5) = V (Proc.devRef .tc main_arg5) := by
  dsimp only [hostOps0_2]
  after_results <;> rfl

theorem s2_keep_arg6 : after (hostOps0_2 (F := Ideal)) V (Proc.devRef .tc main_arg6) = V (Proc.devRef .tc main_arg6) := by
  dsimp only [hostOps0_2]
  after_results <;> rfl

theorem s2_keep_arg7 : after (hostOps0_2 (F := Ideal)) V (Proc.devRef .tc main_arg7) = V (Proc.devRef .tc main_arg7) := by
  dsimp only [hostOps0_2]
  after_results <;> rfl

end Cert.KernelIdeal.StretchB

end
-- ==== Proof.StretchL1.lean ====
/-
  A stretch of host operations between two regions, over any buffer contents V: the aggregation of the matrix region's
  output and the next bias re-laid as one row.  No operation of it writes an index array, the edge weights or an argument.
-/
import proofs.«112825_j71571335020554_1_alg».proof.Proof.Gen.KernelIdeal.Launch
import proofs.«112825_j71571335020554_1_alg».proof.Proof.KernelSpec
import Idealize.ShloMosaic.Lib.StableHlo.Run

set_option maxRecDepth 16384

noncomputable section

namespace Cert.KernelIdeal.StretchL1

open Idealize.ShloMosaic Idealize.ShloMosaic.TcCoe Idealize.SL.Sem Idealize.ShloMosaic.StableHlo
open Cert.KernelIdeal Cert.KernelIdeal.Gen

variable (V : Valuation τ sig (Elt Ideal))

/-! ## After region 0 -/

set_option maxHeartbeats 16000000 in
theorem l1_v43 : after (hostOps1 (F := Ideal)) V (Proc.devRef .tc main_v43) = Cert.Spec.aggOf (F := Ideal) (V (Proc.devRef .tc main_v5)) (V (Proc.devRef .tc main_v6)) (V (Proc.devRef .tc main_v29)) (V (Proc.devRef .tc main_v30)) := by
  dsimp only [hostOps1]
  after_results <;> rfl

theorem l1_v44 : after (hostOps1 (F := Ideal)) V (Proc.devRef .tc main_v44) = Cert.Spec.asRow (V (Proc.devRef .tc main_arg3)) := by
  dsimp only [hostOps1]
  after_results <;> rfl

theorem l1_keep_v5 : after (hostOps1 (F := Ideal)) V (Proc.devRef .tc main_v5) = V (Proc.devRef .tc main_v5) := by
  dsimp only [hostOps1]
  after_results <;> rfl

theorem l1_keep_v6 : after (hostOps1 (F := Ideal)) V (Proc.devRef .tc main_v6) = V (Proc.devRef .tc main_v6) := by
  dsimp only [hostOps1]
  after_results <;> rfl

theorem l1_keep_v29 : after (hostOps1 (F := Ideal)) V (Proc.devRef .tc main_v29) = V (Proc.devRef .tc main_v29) := by
  dsimp only [hostOps1]
  after_results <;> rfl

theorem l1_keep_arg4 : after (hostOps1 (F := Ideal)) V (Proc.devRef .tc main_arg4) = V (Proc.devRef .tc main_arg4) := by
  dsimp only [hostOps1]
  after_results <;> rfl

theorem l1_keep_arg5 : after (hostOps1 (F := Ideal)) V (Proc.devRef .tc main_arg5) = V (Proc.devRef .tc main_arg5) := by
  dsimp only [hostOps1]
  after_results <;> rfl

theorem l1_keep_arg6 : after (hostOps1 (F := Ideal)) V (Proc.devRef .tc main_arg6) = V (Proc.devRef .tc main_arg6) := by
  dsimp only [hostOps1]
  after_results <;> rfl

theorem l1_keep_arg7 : after (hostOps1 (F := Ideal)) V (Proc.devRef .tc main_arg7) = V (Proc.devRef .tc main_arg7) := by
  dsimp only [hostOps1]
  after_results <;> rfl

end Cert.KernelIdeal.StretchL1

end
-- ==== Proof.StretchL2.lean ====
/-
  A stretch of host operations between two regions, over any buffer contents V: the aggregation of the matrix region's
  output and the next bias re-laid as one row.  No operation of it writes an index array, the edge weights or an argument.
-/
import proofs.«112825_j71571335020554_1_alg».proof.Proof.Gen.KernelIdeal.Launch
import proofs.«112825_j71571335020554_1_alg».proof.Proof.KernelSpec
import Idealize.ShloMosaic.Lib.StableHlo.Run

set_option maxRecDepth 16384

noncomputable section

namespace Cert.KernelIdeal.StretchL2

open Idealize.ShloMosaic Idealize.ShloMosaic.TcCoe Idealize.SL.Sem Idealize.ShloMosaic.StableHlo
open Cert.KernelIdeal Cert.KernelIdeal.Gen

variable (V : Valuation τ sig (Elt Ideal))

/-! ## After region 2 -/

set_option maxHeartbeats 16000000 in
theorem l2_v59 : after (hostOps3 (F := Ideal)) V (Proc.devRef .tc main_v59) = Cert.Spec.aggOf (F := Ideal) (V (Proc.devRef .tc main_v5)) (V (Proc.devRef .tc main_v6)) (V (Proc.devRef .tc main_v29)) (V (Proc.devRef .tc main_v46)) := by
  dsimp only [hostOps3]
  after_results <;> rfl

theorem l2_v60 : after (hostOps3 (F := Ideal)) V (Proc.devRef .tc main_v60) = Cert.Spec.asRow (V (Proc.devRef .tc main_arg5)) := by
  dsimp only [hostOps3]
  after_results <;> rfl

theorem l2_keep_v5 : after (hostOps3 (F := Ideal)) V (Proc.devRef .tc main_v5) = V (Proc.devRef .tc main_v5) := by
  dsimp only [hostOps3]
  after_results <;> rfl

theorem l2_keep_v6 : after (hostOps3 (F := Ideal)) V (Proc.devRef .tc main_v6) = V (Proc.devRef .tc main_v6) := by
  dsimp only [hostOps3]
  after_results <;> rfl

theorem l2_keep_v29 : after (hostOps3 (F := Ideal)) V (Proc.devRef .tc main_v29) = V (Proc.devRef .tc main_v29) := by
  dsimp only [hostOps3]
  after_results <;> rfl

theorem l2_keep_arg6 : after (hostOps3 (F := Ideal)) V (Proc.devRef .tc main_arg6) = V (Proc.devRef .tc main_arg6) := by
  dsimp only [hostOps3]
  after_results <;> rfl

theorem l2_keep_arg7 : after (hostOps3 (F := Ideal)) V (Proc.devRef .tc main_arg7) = V (Proc.devRef .tc main_arg7) := by
  dsimp only [hostOps3]
  after_results <;> rfl

end Cert.KernelIdeal.StretchL2

end
-- ==== Proof.StretchL3.lean ====
/-
  A stretch of host operations between two regions, over any buffer contents V: the aggregation of the matrix region's
  output and the next bias re-laid as one row.  No operation of it writes an index array, the edge weights or an argument.
-/
import proofs.«112825_j71571335020554_1_alg».proof.Proof.Gen.KernelIdeal.Launch
import proofs.«112825_j71571335020554_1_alg».proof.Proof.KernelSpec
import Idealize.ShloMosaic.Lib.StableHlo.Run

set_option maxRecDepth 16384

noncomputable section

namespace Cert.KernelIdeal.StretchL3

open Idealize.ShloMosaic Idealize.ShloMosaic.TcCoe Idealize.SL.Sem Idealize.ShloMosaic.StableHlo
open Cert.KernelIdeal Cert.KernelIdeal.Gen

variable (V : Valuation τ sig (Elt Ideal))

/-! ## After region 4 -/

set_option maxHeartbeats 16000000 in
theorem l3_v75 : after (hostOps5 (F := Ideal)) V (Proc.devRef .tc main_v75) = Cert.Spec.aggOf (F := Ideal) (V (Proc.devRef .tc main_v5)) (V (Proc.devRef .tc main_v6)) (V (Proc.devRef .tc main_v29)) (V (Proc.devRef .tc main_v62)) := by
  dsimp only [hostOps5]
  after_results <;> rfl

theorem l3_v76 : after (hostOps5 (F := Ideal)) V (Proc.devRef .tc main_v76) = Cert.Spec.asRow (V (Proc.devRef .tc main_arg7)) := by
  dsimp only [hostOps5]
  after_results <;> rfl

end Cert.KernelIdeal.StretchL3

end
-- ==== Proof.Fold.lean ====
/-
  The kernel's fold, read: what the live buffers hold at each segment boundary.

  After the first three stretches of host operations the index arrays and the edge weights are the reference's
  own functions of the edge list (the two programs spell that part with the same operations).  Each matrix region then
  leaves rows-times-weights of what it finds, each following stretch the aggregation of it and the bias as a row, each
  bias region the biased (and, for the first two layers, clipped-at-zero) array; no region or stretch touches the
  index arrays, the edge weights or an argument it does not produce.  At the last boundary the result buffer holds the
  kernel's composed value of the launch arguments.
-/
import proofs.«112825_j71571335020554_1_alg».proof.Proof.Gen.KernelIdeal.Frame
import proofs.«112825_j71571335020554_1_alg».proof.Proof.Blocks
import proofs.«112825_j71571335020554_1_alg».proof.Proof.KernelSpec
import proofs.«112825_j71571335020554_1_alg».proof.Proof.StretchA
import proofs.«112825_j71571335020554_1_alg».proof.Proof.StretchB
import proofs.«112825_j71571335020554_1_alg».proof.Proof.StretchL1
import proofs.«112825_j71571335020554_1_alg».proof.Proof.StretchL2
import proofs.«112825_j71571335020554_1_alg».proof.Proof.StretchL3
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- Launch argument 0, as an array. -/
abbrev A0 : (⟨S50000x128, .f32⟩ : BufTy).Contents (Elt Ideal) := m ((c.tc : Thread nD τ).loc main_arg0)
/-- Launch argument 1, as an array. -/
abbrev A1 : (⟨S2x800000, .i32⟩ : BufTy).Contents (Elt Ideal) := m ((c.tc : Thread nD τ).loc main_arg1)
/-- Launch argument 2, as an array. -/
abbrev A2 : (⟨S128x128, .f32⟩ : BufTy).Contents (Elt Ideal) := m ((c.tc : Thread nD τ).loc main_arg2)
/-- Launch argument 3, as an array. -/
abbrev A3 : (⟨S128, .f32⟩ : BufTy).Contents (Elt Ideal) := m ((c.tc : Thread nD τ).loc main_arg3)
/-- Launch argument 4, as an array. -/
abbrev A4 : (⟨S128x128, .f32⟩ : BufTy).Contents (Elt Ideal) := m ((c.tc : Thread nD τ).loc main_arg4)
/-- Launch argument 5, as an array. -/
abbrev A5 : (⟨S128, .f32⟩ : BufTy).Contents (Elt Ideal) := m ((c.tc : Thread nD τ).loc main_arg5)
/-- Launch argument 6, as an array. -/
abbrev A6 : (⟨S128x128, .f32⟩ : BufTy).Contents (Elt Ideal) := m ((c.tc : Thread nD τ).loc main_arg6)
/-- Launch argument 7, as an array. -/
abbrev A7 : (⟨S128, .f32⟩ : BufTy).Contents (Elt Ideal) := m ((c.tc : Thread nD τ).loc main_arg7)

/-! ## The three stretches before region 0: the indices, the per-node factors, the edge weights -/

theorem at1_v5 : W1 m ρ c (Proc.devRef .tc main_v5) = (Spec.srcs (F := Ideal) (A1 m c)) :=
  StretchA.s0_v5 (W0 m ρ c)

theorem at1_v6 : W1 m ρ c (Proc.devRef .tc main_v6) = (Spec.dsts (F := Ideal) (A1 m c)) :=
  StretchA.s0_v6 (W0 m ρ c)

theorem at1_v12 : W1 m ρ c (Proc.devRef .tc main_v12) = (Spec.posOf (F := Ideal) (Spec.dsts (F := Ideal) (A1 m c))) :=
  StretchA.s0_v12 (W0 m ρ c)

theorem at1_v13 : W1 m ρ c (Proc.devRef .tc main_v13) = (Spec.rsqOf (F := Ideal) (Spec.dsts (F := Ideal) (A1 m c))) :=
  StretchA.s0_v13 (W0 m ρ c)

theorem at1_cst_2 : W1 m ρ c (Proc.devRef .tc main_cst_2) = (Spec.zero0 (F := Ideal)) :=
  StretchA.s0_cst_2 (W0 m ρ c)

theorem at1_arg0 : W1 m ρ c (Proc.devRef .tc main_arg0) = (A0 m c) :=
  StretchA.s0_keep_arg0 (W0 m ρ c)

theorem at1_arg2 : W1 m ρ c (Proc.devRef .tc main_arg2) = (A2 m c) :=
  StretchA.s0_keep_arg2 (W0 m ρ c)

theorem at1_arg3 : W1 m ρ c (Proc.devRef .tc main_arg3) = (A3 m c) :=
  StretchA.s0_keep_arg3 (W0 m ρ c)

theorem at1_arg4 : W1 m ρ c (Proc.devRef .tc main_arg4) = (A4 m c) :=
  StretchA.s0_keep_arg4 (W0 m ρ c)

theorem at1_arg5 : W1 m ρ c (Proc.devRef .tc main_arg5) = (A5 m c) :=
  StretchA.s0_keep_arg5 (W0 m ρ c)

theorem at1_arg6 : W1 m ρ c (Proc.devRef .tc main_arg6) = (A6 m c) :=
  StretchA.s0_keep_arg6 (W0 m ρ c)

theorem at1_arg7 : W1 m ρ c (Proc.devRef .tc main_arg7) = (A7 m c) :=
  StretchA.s0_keep_arg7 (W0 m ρ c)

theorem at2_v14 : W2 m ρ c (Proc.devRef .tc main_v14) = (Spec.dinv (F := Ideal) (Spec.dsts (F := Ideal) (A1 m c))) :=
  (StretchA.s1_v14 (W1 m ρ c)).trans (by rw [at1_v12, at1_v13, at1_cst_2]; rfl)

theorem at2_v5 : W2 m ρ c (Proc.devRef .tc main_v5) = (Spec.srcs (F := Ideal) (A1 m c)) :=
  (StretchA.s1_keep_v5 (W1 m ρ c)).trans (at1_v5 m ρ c)

theorem at2_v6 : W2 m ρ c (Proc.devRef .tc main_v6) = (Spec.dsts (F := Ideal) (A1 m c)) :=
  (StretchA.s1_keep_v6 (W1 m ρ c)).trans (at1_v6 m ρ c)

theorem at2_arg0 : W2 m ρ c (Proc.devRef .tc main_arg0) = (A0 m c) :=
  (StretchA.s1_keep_arg0 (W1 m ρ c)).trans (at1_arg0 m ρ c)

theorem at2_arg2 : W2 m ρ c (Proc.devRef .tc main_arg2) = (A2 m c) :=
  (StretchA.s1_keep_arg2 (W1 m ρ c)).trans (at1_arg2 m ρ c)

theorem at2_arg3 : W2 m ρ c (Proc.devRef .tc main_arg3) = (A3 m c) :=
  (StretchA.s1_keep_arg3 (W1 m ρ c)).trans (at1_arg3 m ρ c)

theorem at2_arg4 : W2 m ρ c (Proc.devRef .tc main_arg4) = (A4 m c) :=
  (StretchA.s1_keep_arg4 (W1 m ρ c)).trans (at1_arg4 m ρ c)

theorem at2_arg5 : W2 m ρ c (Proc.devRef .tc main_arg5) = (A5 m c) :=
  (StretchA.s1_keep_arg5 (W1 m ρ c)).trans (at1_arg5 m ρ c)

theorem at2_arg6 : W2 m ρ c (Proc.devRef .tc main_arg6) = (A6 m c) :=
  (StretchA.s1_keep_arg6 (W1 m ρ c)).trans (at1_arg6 m ρ c)

theorem at2_arg7 : W2 m ρ c (Proc.devRef .tc main_arg7) = (A7 m c) :=
  (StretchA.s1_keep_arg7 (W1 m ρ c)).trans (at1_arg7 m ρ c)

theorem at3_v29 : W3 m ρ c (Proc.devRef .tc main_v29) = (Spec.nrm (F := Ideal) (Spec.srcs (F := Ideal) (A1 m c)) (Spec.dsts (F := Ideal) (A1 m c))) :=
  (StretchB.s2_v29 (W2 m ρ c)).trans (by rw [at2_v5, at2_v6, at2_v14]; rfl)

theorem at3_v5 : W3 m ρ c (Proc.devRef .tc main_v5) = (Spec.srcs (F := Ideal) (A1 m c)) :=
  (StretchB.s2_keep_v5 (W2 m ρ c)).trans (at2_v5 m ρ c)

theorem at3_v6 : W3 m ρ c (Proc.devRef .tc main_v6) = (Spec.dsts (F := Ideal) (A1 m c)) :=
  (StretchB.s2_keep_v6 (W2 m ρ c)).trans (at2_v6 m ρ c)

theorem at3_arg0 : W3 m ρ c (Proc.devRef .tc main_arg0) = (A0 m c) :=
  (StretchB.s2_keep_arg0 (W2 m ρ c)).trans (at2_arg0 m ρ c)

theorem at3_arg2 : W3 m ρ c (Proc.devRef .tc main_arg2) = (A2 m c) :=
  (StretchB.s2_keep_arg2 (W2 m ρ c)).trans (at2_arg2 m ρ c)

theorem at3_arg3 : W3 m ρ c (Proc.devRef .tc main_arg3) = (A3 m c) :=
  (StretchB.s2_keep_arg3 (W2 m ρ c)).trans (at2_arg3 m ρ c)

theorem at3_arg4 : W3 m ρ c (Proc.devRef .tc main_arg4) = (A4 m c) :=
  (StretchB.s2_keep_arg4 (W2 m ρ c)).trans (at2_arg4 m ρ c)

theorem at3_arg5 : W3 m ρ c (Proc.devRef .tc main_arg5) = (A5 m c) :=
  (StretchB.s2_keep_arg5 (W2 m ρ c)).trans (at2_arg5 m ρ c)

theorem at3_arg6 : W3 m ρ c (Proc.devRef .tc main_arg6) = (A6 m c) :=
  (StretchB.s2_keep_arg6 (W2 m ρ c)).trans (at2_arg6 m ρ c)

theorem at3_arg7 : W3 m ρ c (Proc.devRef .tc main_arg7) = (A7 m c) :=
  (StretchB.s2_keep_arg7 (W2 m ρ c)).trans (at2_arg7 m ρ c)

/-! ## Region 0's exit -/

theorem at4_v30 : W4 m ρ c (Proc.devRef .tc main_v30) = (Closed.rowsTimes (A0 m c) (A2 m c)) :=
  (W4_arr m ρ c 2).trans ((Closed.final0 (V3 m ρ) c).trans (congrArg₂ Closed.rowsTimes (at3_arg0 m ρ c) (at3_arg2 m ρ c)))

theorem at4_v5 : W4 m ρ c (Proc.devRef .tc main_v5) = (Spec.srcs (F := Ideal) (A1 m c)) :=
  (W4_of_ne m ρ c main_v5 (by decide)).trans (at3_v5 m ρ c)

theorem at4_v6 : W4 m ρ c (Proc.devRef .tc main_v6) = (Spec.dsts (F := Ideal) (A1 m c)) :=
  (W4_of_ne m ρ c main_v6 (by decide)).trans (at3_v6 m ρ c)

theorem at4_v29 : W4 m ρ c (Proc.devRef .tc main_v29) = (Spec.nrm (F := Ideal) (Spec.srcs (F := Ideal) (A1 m c)) (Spec.dsts (F := Ideal) (A1 m c))) :=
  (W4_of_ne m ρ c main_v29 (by decide)).trans (at3_v29 m ρ c)

theorem at4_arg3 : W4 m ρ c (Proc.devRef .tc main_arg3) = (A3 m c) :=
  (W4_of_ne m ρ c main_arg3 (by decide)).trans (at3_arg3 m ρ c)

theorem at4_arg4 : W4 m ρ c (Proc.devRef .tc main_arg4) = (A4 m c) :=
  (W4_of_ne m ρ c main_arg4 (by decide)).trans (at3_arg4 m ρ c)

theorem at4_arg5 : W4 m ρ c (Proc.devRef .tc main_arg5) = (A5 m c) :=
  (W4_of_ne m ρ c main_arg5 (by decide)).trans (at3_arg5 m ρ c)

theorem at4_arg6 : W4 m ρ c (Proc.devRef .tc main_arg6) = (A6 m c) :=
  (W4_of_ne m ρ c main_arg6 (by decide)).trans (at3_arg6 m ρ c)

theorem at4_arg7 : W4 m ρ c (Proc.devRef .tc main_arg7) = (A7 m c) :=
  (W4_of_ne m ρ c main_arg7 (by decide)).trans (at3_arg7 m ρ c)

/-! ## After the stretch between regions 0 and 1: the aggregation and the bias as a row -/

theorem at5_v43 : W5 m ρ c (Proc.devRef .tc main_v43) = (Spec.aggOf (F := Ideal) (Spec.srcs (F := Ideal) (A1 m c)) (Spec.dsts (F := Ideal) (A1 m c)) (Spec.nrm (F := Ideal) (Spec.srcs (F := Ideal) (A1 m c)) (Spec.dsts (F := Ideal) (A1 m c))) (Closed.rowsTimes (A0 m c) (A2 m c))) :=
  (StretchL1.l1_v43 (W4 m ρ c)).trans (by rw [at4_v5, at4_v6, at4_v29, at4_v30])

theorem at5_v44 : W5 m ρ c (Proc.devRef .tc main_v44) = Spec.asRow (A3 m c) :=
  (StretchL1.l1_v44 (W4 m ρ c)).trans (by rw [at4_arg3])

theorem at5_v5 : W5 m ρ c (Proc.devRef .tc main_v5) = (Spec.srcs (F := Ideal) (A1 m c)) :=
  (StretchL1.l1_keep_v5 (W4 m ρ c)).trans (at4_v5 m ρ c)

theorem at5_v6 : W5 m ρ c (Proc.devRef .tc main_v6) = (Spec.dsts (F := Ideal) (A1 m c)) :=
  (StretchL1.l1_keep_v6 (W4 m ρ c)).trans (at4_v6 m ρ c)

theorem at5_v29 : W5 m ρ c (Proc.devRef .tc main_v29) = (Spec.nrm (F := Ideal) (Spec.srcs (F := Ideal) (A1 m c)) (Spec.dsts (F := Ideal) (A1 m c))) :=
  (StretchL1.l1_keep_v29 (W4 m ρ c)).trans (at4_v29 m ρ c)

theorem at5_arg4 : W5 m ρ c (Proc.devRef .tc main_arg4) = (A4 m c) :=
  (StretchL1.l1_keep_arg4 (W4 m ρ c)).trans (at4_arg4 m ρ c)

theorem at5_arg5 : W5 m ρ c (Proc.devRef .tc main_arg5) = (A5 m c) :=
  (StretchL1.l1_keep_arg5 (W4 m ρ c)).trans (at4_arg5 m ρ c)

theorem at5_arg6 : W5 m ρ c (Proc.devRef .tc main_arg6) = (A6 m c) :=
  (StretchL1.l1_keep_arg6 (W4 m ρ c)).trans (at4_arg6 m ρ c)

theorem at5_arg7 : W5 m ρ c (Proc.devRef .tc main_arg7) = (A7 m c) :=
  (StretchL1.l1_keep_arg7 (W4 m ρ c)).trans (at4_arg7 m ρ c)

/-! ## Region 1's exit: the first layer's output -/

theorem at6_v45 : W6 m ρ c (Proc.devRef .tc main_v45) = (Spec.kerLayer (Spec.srcs (F := Ideal) (A1 m c)) (Spec.dsts (F := Ideal) (A1 m c)) (Spec.nrm (F := Ideal) (Spec.srcs (F := Ideal) (A1 m c)) (Spec.dsts (F := Ideal) (A1 m c))) (A0 m c) (A2 m c) (A3 m c)) :=
  (W6_arr m ρ c 2).trans ((Closed.final1 (V5 m ρ) c).trans (congrArg₂ Closed.addRowMax (at5_v43 m ρ c) (at5_v44 m ρ c)))

theorem at6_v5 : W6 m ρ c (Proc.devRef .tc main_v5) = (Spec.srcs (F := Ideal) (A1 m c)) :=
  (W6_of_ne m ρ c main_v5 (by decide)).trans (at5_v5 m ρ c)

theorem at6_v6 : W6 m ρ c (Proc.devRef .tc main_v6) = (Spec.dsts (F := Ideal) (A1 m c)) :=
  (W6_of_ne m ρ c main_v6 (by decide)).trans (at5_v6 m ρ c)

theorem at6_v29 : W6 m ρ c (Proc.devRef .tc main_v29) = (Spec.nrm (F := Ideal) (Spec.srcs (F := Ideal) (A1 m c)) (Spec.dsts (F := Ideal) (A1 m c))) :=
  (W6_of_ne m ρ c main_v29 (by decide)).trans (at5_v29 m ρ c)

theorem at6_arg4 : W6 m ρ c (Proc.devRef .tc main_arg4) = (A4 m c) :=
  (W6_of_ne m ρ c main_arg4 (by decide)).trans (at5_arg4 m ρ c)

theorem at6_arg5 : W6 m ρ c (Proc.devRef .tc main_arg5) = (A5 m c) :=
  (W6_of_ne m ρ c main_arg5 (by decide)).trans (at5_arg5 m ρ c)

theorem at6_arg6 : W6 m ρ c (Proc.devRef .tc main_arg6) = (A6 m c) :=
  (W6_of_ne m ρ c main_arg6 (by decide)).trans (at5_arg6 m ρ c)

theorem at6_arg7 : W6 m ρ c (Proc.devRef .tc main_arg7) = (A7 m c) :=
  (W6_of_ne m ρ c main_arg7 (by decide)).trans (at5_arg7 m ρ c)

/-! ## Region 2's exit -/

theorem at7_v46 : W7 m ρ c (Proc.devRef .tc main_v46) = (Closed.rowsTimes (Spec.kerLayer (Spec.srcs (F := Ideal) (A1 m c)) (Spec.dsts (F := Ideal) (A1 m c)) (Spec.nrm (F := Ideal) (Spec.srcs (F := Ideal) (A1 m c)) (Spec.dsts (F := Ideal) (A1 m c))) (A0 m c) (A2 m c) (A3 m c)) (A4 m c)) :=
  (W7_arr m ρ c 2).trans ((Closed.final2 (V6 m ρ) c).trans (congrArg₂ Closed.rowsTimes (at6_v45 m ρ c) (at6_arg4 m ρ c)))

theorem at7_v5 : W7 m ρ c (Proc.devRef .tc main_v5) = (Spec.srcs (F := Ideal) (A1 m c)) :=
  (W7_of_ne m ρ c main_v5 (by decide)).trans (at6_v5 m ρ c)

theorem at7_v6 : W7 m ρ c (Proc.devRef .tc main_v6) = (Spec.dsts (F := Ideal) (A1 m c)) :=
  (W7_of_ne m ρ c main_v6 (by decide)).trans (at6_v6 m ρ c)

theorem at7_v29 : W7 m ρ c (Proc.devRef .tc main_v29) = (Spec.nrm (F := Ideal) (Spec.srcs (F := Ideal) (A1 m c)) (Spec.dsts (F := Ideal) (A1 m c))) :=
  (W7_of_ne m ρ c main_v29 (by decide)).trans (at6_v29 m ρ c)

theorem at7_arg5 : W7 m ρ c (Proc.devRef .tc main_arg5) = (A5 m c) :=
  (W7_of_ne m ρ c main_arg5 (by decide)).trans (at6_arg5 m ρ c)

theorem at7_arg6 : W7 m ρ c (Proc.devRef .tc main_arg6) = (A6 m c) :=
  (W7_of_ne m ρ c main_arg6 (by decide)).trans (at6_arg6 m ρ c)

theorem at7_arg7 : W7 m ρ c (Proc.devRef .tc main_arg7) = (A7 m c) :=
  (W7_of_ne m ρ c main_arg7 (by decide)).trans (at6_arg7 m ρ c)

/-! ## After the stretch between regions 2 and 3 -/

theorem at8_v59 : W8 m ρ c (Proc.devRef .tc main_v59) = (Spec.aggOf (F := Ideal) (Spec.srcs (F := Ideal) (A1 m c)) (Spec.dsts (F := Ideal) (A1 m c)) (Spec.nrm (F := Ideal) (Spec.srcs (F := Ideal) (A1 m c)) (Spec.dsts (F := Ideal) (A1 m c))) (Closed.rowsTimes (Spec.kerLayer (Spec.srcs (F := Ideal) (A1 m c)) (Spec.dsts (F := Ideal) (A1 m c)) (Spec.nrm (F := Ideal) (Spec.srcs (F := Ideal) (A1 m c)) (Spec.dsts (F := Ideal) (A1 m c))) (A0 m c) (A2 m c) (A3 m c)) (A4 m c))) :=
  (StretchL2.l2_v59 (W7 m ρ c)).trans (by rw [at7_v5, at7_v6, at7_v29, at7_v46])

theorem at8_v60 : W8 m ρ c (Proc.devRef .tc main_v60) = Spec.asRow (A5 m c) :=
  (StretchL2.l2_v60 (W7 m ρ c)).trans (by rw [at7_arg5])

theorem at8_v5 : W8 m ρ c (Proc.devRef .tc main_v5) = (Spec.srcs (F := Ideal) (A1 m c)) :=
  (StretchL2.l2_keep_v5 (W7 m ρ c)).trans (at7_v5 m ρ c)

theorem at8_v6 : W8 m ρ c (Proc.devRef .tc main_v6) = (Spec.dsts (F := Ideal) (A1 m c)) :=
  (StretchL2.l2_keep_v6 (W7 m ρ c)).trans (at7_v6 m ρ c)

theorem at8_v29 : W8 m ρ c (Proc.devRef .tc main_v29) = (Spec.nrm (F := Ideal) (Spec.srcs (F := Ideal) (A1 m c)) (Spec.dsts (F := Ideal) (A1 m c))) :=
  (StretchL2.l2_keep_v29 (W7 m ρ c)).trans (at7_v29 m ρ c)

theorem at8_arg6 : W8 m ρ c (Proc.devRef .tc main_arg6) = (A6 m c) :=
  (StretchL2.l2_keep_arg6 (W7 m ρ c)).trans (at7_arg6 m ρ c)

theorem at8_arg7 : W8 m ρ c (Proc.devRef .tc main_arg7) = (A7 m c) :=
  (StretchL2.l2_keep_arg7 (W7 m ρ c)).trans (at7_arg7 m ρ c)

/-! ## Region 3's exit: the second layer's output -/

theorem at9_v61 : W9 m ρ c (Proc.devRef .tc main_v61) = (Spec.kerLayer (Spec.srcs (F := Ideal) (A1 m c)) (Spec.dsts (F := Ideal) (A1 m c)) (Spec.nrm (F := Ideal) (Spec.srcs (F := Ideal) (A1 m c)) (Spec.dsts (F := Ideal) (A1 m c))) (Spec.kerLayer (Spec.srcs (F := Ideal) (A1 m c)) (Spec.dsts (F := Ideal) (A1 m c)) (Spec.nrm (F := Ideal) (Spec.srcs (F := Ideal) (A1 m c)) (Spec.dsts (F := Ideal) (A1 m c))) (A0 m c) (A2 m c) (A3 m c)) (A4 m c) (A5 m c)) :=
  (W9_arr m ρ c 2).trans ((Closed.final3 (V8 m ρ) c).trans (congrArg₂ Closed.addRowMax (at8_v59 m ρ c) (at8_v60 m ρ c)))

theorem at9_v5 : W9 m ρ c (Proc.devRef .tc main_v5) = (Spec.srcs (F := Ideal) (A1 m c)) :=
  (W9_of_ne m ρ c main_v5 (by decide)).trans (at8_v5 m ρ c)

theorem at9_v6 : W9 m ρ c (Proc.devRef .tc main_v6) = (Spec.dsts (F := Ideal) (A1 m c)) :=
  (W9_of_ne m ρ c main_v6 (by decide)).trans (at8_v6 m ρ c)

theorem at9_v29 : W9 m ρ c (Proc.devRef .tc main_v29) = (Spec.nrm (F := Ideal) (Spec.srcs (F := Ideal) (A1 m c)) (Spec.dsts (F := Ideal) (A1 m c))) :=
  (W9_of_ne m ρ c main_v29 (by decide)).trans (at8_v29 m ρ c)

theorem at9_arg6 : W9 m ρ c (Proc.devRef .tc main_arg6) = (A6 m c) :=
  (W9_of_ne m ρ c main_arg6 (by decide)).trans (at8_arg6 m ρ c)

theorem at9_arg7 : W9 m ρ c (Proc.devRef .tc main_arg7) = (A7 m c) :=
  (W9_of_ne m ρ c main_arg7 (by decide)).trans (at8_arg7 m ρ c)

/-! ## Region 4's exit -/

theorem at10_v62 : W10 m ρ c (Proc.devRef .tc main_v62) = (Closed.rowsTimes (Spec.kerLayer (Spec.srcs (F := Ideal) (A1 m c)) (Spec.dsts (F := Ideal) (A1 m c)) (Spec.nrm (F := Ideal) (Spec.srcs (F := Ideal) (A1 m c)) (Spec.dsts (F := Ideal) (A1 m c))) (Spec.kerLayer (Spec.srcs (F := Ideal) (A1 m c)) (Spec.dsts (F := Ideal) (A1 m c)) (Spec.nrm (F := Ideal) (Spec.srcs (F := Ideal) (A1 m c)) (Spec.dsts (F := Ideal) (A1 m c))) (A0 m c) (A2 m c) (A3 m c)) (A4 m c) (A5 m c)) (A6 m c)) :=
  (W10_arr m ρ c 2).trans ((Closed.final4 (V9 m ρ) c).trans (congrArg₂ Closed.rowsTimes (at9_v61 m ρ c) (at9_arg6 m ρ c)))

theorem at10_v5 : W10 m ρ c (Proc.devRef .tc main_v5) = (Spec.srcs (F := Ideal) (A1 m c)) :=
  (W10_of_ne m ρ c main_v5 (by decide)).trans (at9_v5 m ρ c)

theorem at10_v6 : W10 m ρ c (Proc.devRef .tc main_v6) = (Spec.dsts (F := Ideal) (A1 m c)) :=
  (W10_of_ne m ρ c main_v6 (by decide)).trans (at9_v6 m ρ c)

theorem at10_v29 : W10 m ρ c (Proc.devRef .tc main_v29) = (Spec.nrm (F := Ideal) (Spec.srcs (F := Ideal) (A1 m c)) (Spec.dsts (F := Ideal) (A1 m c))) :=
  (W10_of_ne m ρ c main_v29 (by decide)).trans (at9_v29 m ρ c)

theorem at10_arg7 : W10 m ρ c (Proc.devRef .tc main_arg7) = (A7 m c) :=
  (W10_of_ne m ρ c main_arg7 (by decide)).trans (at9_arg7 m ρ c)

/-! ## After the stretch between regions 4 and 5 -/

theorem at11_v75 : W11 m ρ c (Proc.devRef .tc main_v75) = (Spec.aggOf (F := Ideal) (Spec.srcs (F := Ideal) (A1 m c)) (Spec.dsts (F := Ideal) (A1 m c)) (Spec.nrm (F := Ideal) (Spec.srcs (F := Ideal) (A1 m c)) (Spec.dsts (F := Ideal) (A1 m c))) (Closed.rowsTimes (Spec.kerLayer (Spec.srcs (F := Ideal) (A1 m c)) (Spec.dsts (F := Ideal) (A1 m c)) (Spec.nrm (F := Ideal) (Spec.srcs (F := Ideal) (A1 m c)) (Spec.dsts (F := Ideal) (A1 m c))) (Spec.kerLayer (Spec.srcs (F := Ideal) (A1 m c)) (Spec.dsts (F := Ideal) (A1 m c)) (Spec.nrm (F := Ideal) (Spec.srcs (F := Ideal) (A1 m c)) (Spec.dsts (F := Ideal) (A1 m c))) (A0 m c) (A2 m c) (A3 m c)) (A4 m c) (A5 m c)) (A6 m c))) :=
  (StretchL3.l3_v75 (W10 m ρ c)).trans (by rw [at10_v5, at10_v6, at10_v29, at10_v62])

theorem at11_v76 : W11 m ρ c (Proc.devRef .tc main_v76) = Spec.asRow (A7 m c) :=
  (StretchL3.l3_v76 (W10 m ρ c)).trans (by rw [at10_arg7])

/-! ## Region 5's exit: the result -/

/-- The result buffer at the last boundary holds the kernel's composed value of the launch arguments. -/
theorem result : W12 m ρ c (Proc.devRef .tc main_v77) = Spec.kerVal (A0 m c) (A1 m c) (A2 m c) (A3 m c) (A4 m c) (A5 m c) (A6 m c) (A7 m c) :=
  (W12_arr m ρ c 2).trans ((Closed.final5 (V11 m ρ) c).trans (congrArg₂ Closed.addRow (at11_v75 m ρ c) (at11_v76 m ρ c)))

end Cert.KernelIdeal.Fold

end
-- ==== Proof.Bridge.lean ====
/-
  The kernel's value is the reference's value.

  Three identities join the two composed values, layer by layer:
  * rows times weights, as the matrix regions leave it, is the whole contraction of the reference: both are, at
    entry (r, c), the same sum over the 128 contracted positions of h (r, k) · w (k, c) — the blocks only partition
    the rows, and an entry's sum lies within its own row;
  * the bias re-laid as one row and added to every row is the bias broadcast to one row and then to every row: entry
    (r, c) of either is b (c);
  * the larger of an entry and the scalar zero is the larger of it and the entry of an all-zero array.
  The aggregation between them is the same function on both sides.  No identity needs the inputs finite.
-/
import proofs.«112825_j71571335020554_1_alg».proof.Proof.KernelSpec
import Idealize.ShloMosaic.Lib.ValueIdx
import Idealize.ShloMosaic.Lib.Pipeline.Value
import Idealize.ShloMosaic.PureOps.Ideal.Laws

noncomputable section

namespace Cert.Spec

open Idealize.ShloMosaic Idealize.ShloMosaic.ValueIdx Cert.ReferenceIdeal Cert.ReferenceIdeal.Gen

/-- The reference's contraction: the features' axis 1 against the weights' axis 0. -/
abbrev wholeDot : DotDims S50000x128 S128x128 S50000x128 := dot_S50000x128_S128x128_S50000x128_1_0_0_1_n_n

theorem whole_lhs_row (i : S50000x128.Idx) (k : wholeDot.contr.Idx) : (wholeDot.lhsIdx i k ⟨0, Nat.zero_lt_two⟩).val = (i 0).val := rfl
theorem whole_rhs_col (i : S50000x128.Idx) (k : wholeDot.contr.Idx) : (wholeDot.rhsIdx i k ⟨1, Nat.one_lt_two⟩).val = (i 1).val := rfl
theorem whole_lhs_contr (i : S50000x128.Idx) (k : wholeDot.contr.Idx) :
    (wholeDot.lhsIdx i k ⟨1, Nat.one_lt_two⟩).val = (k ⟨0, Nat.one_pos⟩).val :=
  DotDims.lhsIdx_val_of_single wholeDot (cl := ⟨1, Nat.one_lt_two⟩) rfl i k
theorem whole_rhs_contr (i : S50000x128.Idx) (k : wholeDot.contr.Idx) :
    (wholeDot.rhsIdx i k ⟨0, Nat.zero_lt_two⟩).val = (k ⟨0, Nat.one_pos⟩).val :=
  DotDims.rhsIdx_val_of_single wholeDot (cr := ⟨0, Nat.zero_lt_two⟩) rfl i k

/-- The whole contraction read at an entry: the plain sum over the contracted axis. -/
theorem dotR_apply (h : (⟨S50000x128, .f32⟩ : BufTy).Contents (Elt Ideal)) (w : (⟨S128x128, .f32⟩ : BufTy).Contents (Elt Ideal)) (i : S50000x128.Idx) :
    dotR (F := Ideal) h w i = ∑ k : Fin 128, h (ix2 (i 0) k) * w (ix2 k (i 1)) := by
  show Host.dotGeneral (F := Ideal) wholeDot none h w i = _
  simp only [Host.dotGeneral]
  rw [Ideal.dotGeneral_apply, ← Equiv.sum_comp (contrEquiv1 wholeDot 128 rfl rfl).symm]
  refine Finset.sum_congr rfl fun k _ => ?_
  have hk := contrEquiv1_symm_val wholeDot 128 rfl rfl k
  have el : wholeDot.lhsIdx i ((contrEquiv1 wholeDot 128 rfl rfl).symm k) = ix2 (i 0) k := funext fun a => Fin.ext (by
    match a with
    | ⟨0, _⟩ => exact whole_lhs_row _ _
    | ⟨1, _⟩ => exact (whole_lhs_contr _ _).trans hk)
  have er : wholeDot.rhsIdx i ((contrEquiv1 wholeDot 128 rfl rfl).symm k) = ix2 k (i 1) := funext fun a => Fin.ext (by
    match a with
    | ⟨0, _⟩ => exact (whole_rhs_contr _ _).trans hk
    | ⟨1, _⟩ => exact whole_rhs_col _ _)
  rw [el, er]
  rfl

/-- Rows times weights is the whole contraction. -/
theorem rowsTimes_eq (h : (⟨S50000x128, .f32⟩ : BufTy).Contents (Elt Ideal)) (w : (⟨S128x128, .f32⟩ : BufTy).Contents (Elt Ideal)) :
    Cert.KernelIdeal.Closed.rowsTimes h w = dotR (F := Ideal) h w :=
  funext fun i => (dotR_apply h w i).symm

/-- The bias as one row, read at column q. -/
theorem asRow_apply (b : (⟨S128, .f32⟩ : BufTy).Contents (Elt Ideal)) (q : Fin 128) : asRow b (ix2 0 q) = b (ix1 q) := by
  unfold asRow
  refine shapeCast_apply b _ (ix2 0 q) (ix1 q) ?_
  rw [Shape.rowMajor_val_one, Shape.rowMajor_val_two]
  show q.val = 0 * 128 + q.val
  omega

/-- The reference's bias array read at an entry: the bias of the entry's column. -/
theorem biasR_apply (b : (⟨S128, .f32⟩ : BufTy).Contents (Elt Ideal)) (i : S50000x128.Idx) : biasR (F := Ideal) b i = b (ix1 (i 1)) := by
  unfold biasR
  refine (broadcastInDim_apply _ bcast_S1x128_S50000x128_0_1 _ i (ix2 0 (i 1)) (fun a => by
    match a with
    | ⟨0, _⟩ => rfl
    | ⟨1, _⟩ => rfl)).trans ?_
  exact broadcastInDim_apply _ bcast_S128_S1x128_1 b (ix2 0 (i 1)) (ix1 (i 1)) (fun a => by
    match a with
    | ⟨0, _⟩ => rfl)

/-- The reference's all-zero array read at an entry: zero. -/
theorem zeroR_apply (i : S50000x128.Idx) : zeroR (F := Ideal) i = Ideal.ofBits .f32 0x00000000#32 := by
  unfold zeroR
  exact broadcastInDim_apply _ bcast_S_S50000x128 _ i (fun a => a.elim0) (fun a => a.elim0)

/-- A layer of the kernel is the reference's layer. -/
theorem kerLayer_eq (s d : (⟨S850000, .i32⟩ : BufTy).Contents (Elt Ideal)) (n : (⟨S850000, .f32⟩ : BufTy).Contents (Elt Ideal)) (h : (⟨S50000x128, .f32⟩ : BufTy).Contents (Elt Ideal)) (w : (⟨S128x128, .f32⟩ : BufTy).Contents (Elt Ideal)) (b : (⟨S128, .f32⟩ : BufTy).Contents (Elt Ideal)) :
    kerLayer s d n h w b = refLayer (F := Ideal) s d n h w b := by
  unfold kerLayer refLayer
  rw [rowsTimes_eq]
  -- the aggregated array is the same on both sides: call it y
  generalize aggOf (F := Ideal) s d n (dotR (F := Ideal) h w) = y
  funext i
  have hb : asRow b (ix2 0 (i 1)) = biasR (F := Ideal) b i := (asRow_apply b (i 1)).trans (biasR_apply b i).symm
  have hz : Ideal.ofBits .f32 0x00000000#32 = zeroR (F := Ideal) i := (zeroR_apply i).symm
  rw [maximumf_apply, addf_apply]
  exact (congrArg (fun (u : Elt Ideal .f32) => max (y i + u) (Ideal.ofBits .f32 0x00000000#32)) hb).trans
    (congrArg (fun (v : Elt Ideal .f32) => max (y i + biasR (F := Ideal) b i) v) hz)

/-- The kernel's last layer is the reference's. -/
theorem kerLast_eq (s d : (⟨S850000, .i32⟩ : BufTy).Contents (Elt Ideal)) (n : (⟨S850000, .f32⟩ : BufTy).Contents (Elt Ideal)) (h : (⟨S50000x128, .f32⟩ : BufTy).Contents (Elt Ideal)) (w : (⟨S128x128, .f32⟩ : BufTy).Contents (Elt Ideal)) (b : (⟨S128, .f32⟩ : BufTy).Contents (Elt Ideal)) :
    kerLast s d n h w b = refLast (F := Ideal) s d n h w b := by
  unfold kerLast refLast
  rw [rowsTimes_eq]
  generalize aggOf (F := Ideal) s d n (dotR (F := Ideal) h w) = y
  funext i
  have hb : asRow b (ix2 0 (i 1)) = biasR (F := Ideal) b i := (asRow_apply b (i 1)).trans (biasR_apply b i).symm
  rw [addf_apply]
  exact congrArg (fun (u : Elt Ideal .f32) => y i + u) hb

/-- The two programs compute one function of their eight arguments. -/
theorem kerVal_eq (x : (⟨S50000x128, .f32⟩ : BufTy).Contents (Elt Ideal)) (e : (⟨S2x800000, .i32⟩ : BufTy).Contents (Elt Ideal)) (w0 : (⟨S128x128, .f32⟩ : BufTy).Contents (Elt Ideal)) (b0 : (⟨S128, .f32⟩ : BufTy).Contents (Elt Ideal))
    (w1 : (⟨S128x128, .f32⟩ : BufTy).Contents (Elt Ideal)) (b1 : (⟨S128, .f32⟩ : BufTy).Contents (Elt Ideal)) (w2 : (⟨S128x128, .f32⟩ : BufTy).Contents (Elt Ideal)) (b2 : (⟨S128, .f32⟩ : BufTy).Contents (Elt Ideal)) :
    kerVal x e w0 b0 w1 b1 w2 b2 = refVal (F := Ideal) x e w0 b0 w1 b1 w2 b2 := by
  unfold kerVal refVal
  rw [kerLayer_eq, kerLayer_eq, kerLast_eq]

end Cert.Spec

end
-- ==== Proof.RefOps.lean ====
/-
  The reference's operations, as one list and as twelve consecutive stretches.

  The reference is a straight line of 106 host operations (its two called functions' operations standing in their
  calls' places): the indices and the degree's sign and inverse root; the selection of the per-node factors; the edge
  weights; then, for each of the three layers, its contraction, its aggregation and its bias (and activation).
-/
import proofs.«112825_j71571335020554_1_alg».proof.Proof.Gen.ReferenceIdeal
import Idealize.ShloMosaic.Lib.StableHlo.Run

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in program order. -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_v4 (iotaInDim S50000 32 0),
    binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v5 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v5 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v5 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)),
    binary main_arg0 main_arg2 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v5 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v5 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v5 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v30 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf,
    binary main_v47 main_arg4 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_9 (constantI S_ 32 0#32),
    unary main_c_9 main_v49 (broadcastInDim S850000 ![] bcast_S_S850000 : (⟨S_, .i32⟩ : BufTy).Contents (Elt F) → (⟨S850000, .i32⟩ : BufTy).Contents (Elt F)),
    binary main_v5 main_v49 main_v50 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v51 (broadcastInDim S850000 ![] bcast_S_S850000 : (⟨S_, .i32⟩ : BufTy).Contents (Elt F) → (⟨S850000, .i32⟩ : BufTy).Contents (Elt F)),
    binary main_v5 main_v51 main_v52 (addi : (⟨S850000, .i32⟩ : BufTy).Contents (Elt F) → (⟨S850000, .i32⟩ : BufTy).Contents (Elt F) → (⟨S850000, .i32⟩ : BufTy).Contents (Elt F)),
    ternary main_v50 main_v52 main_v5 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v53 main_v54 (broadcastInDim S850000x1 ![0] bcast_S850000_S850000x1_0 : (⟨S850000, .i32⟩ : BufTy).Contents (Elt F) → (⟨S850000x1, .i32⟩ : BufTy).Contents (Elt F)),
    binary main_v48 main_v54 main_v55 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v56 (broadcastInDim S850000x1 ![0] bcast_S850000_S850000x1_0 : (⟨S850000, .f32⟩ : BufTy).Contents (Elt F) → (⟨S850000x1, .f32⟩ : BufTy).Contents (Elt F)),
    unary main_v56 main_v57 (broadcastInDim S850000x128 ![0, 1] bcast_S850000x1_S850000x128_0_1 : (⟨S850000x1, .f32⟩ : BufTy).Contents (Elt F) → (⟨S850000x128, .f32⟩ : BufTy).Contents (Elt F)),
    binary main_v55 main_v57 main_v58 (mulf : (⟨S850000x128, .f32⟩ : BufTy).Contents (Elt F) → (⟨S850000x128, .f32⟩ : BufTy).Contents (Elt F) → (⟨S850000x128, .f32⟩ : BufTy).Contents (Elt F)),
    nullary main_cst_11 (constant S_ .f32 0x00000000#32),
    unary main_cst_11 main_v59 (broadcastInDim S50000x128 ![] bcast_S_S50000x128 : (⟨S_, .f32⟩ : BufTy).Contents (Elt F) → (⟨S50000x128, .f32⟩ : BufTy).Contents (Elt F)),
    unary main_v6 main_v60 (broadcastInDim S850000x1 ![0] bcast_S850000_S850000x1_0 : (⟨S850000, .i32⟩ : BufTy).Contents (Elt F) → (⟨S850000x1, .i32⟩ : BufTy).Contents (Elt F)),
    ternary main_v59 main_v60 main_v58 main_v61 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1 : (⟨S1x128, .f32⟩ : BufTy).Contents (Elt F) → (⟨S50000x128, .f32⟩ : BufTy).Contents (Elt F)),
    binary main_v61 main_v63 main_v64 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v64) (TRef.of (T := ⟨S50000x128, .f32⟩) main_call2_v0) (TRef.of (T := ⟨S50000x128, .f32⟩) main_v65) maximumf,
    binary main_v65 main_arg6 main_v66 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_12 (constantI S_ 32 0#32),
    unary main_c_12 main_v67 (broadcastInDim S850000 ![] bcast_S_S850000 : (⟨S_, .i32⟩ : BufTy).Contents (Elt F) → (⟨S850000, .i32⟩ : BufTy).Contents (Elt F)),
    binary main_v5 main_v67 main_v68 (cmpi .slt : (⟨S850000, .i32⟩ : BufTy).Contents (Elt F) → (⟨S850000, .i32⟩ : BufTy).Contents (Elt F) → (⟨S850000, .i1⟩ : BufTy).Contents (Elt F)),
    nullary main_c_13 (constantI S_ 32 50000#32),
    unary main_c_13 main_v69 (broadcastInDim S850000 ![] bcast_S_S850000 : (⟨S_, .i32⟩ : BufTy).Contents (Elt F) → (⟨S850000, .i32⟩ : BufTy).Contents (Elt F)),
    binary main_v5 main_v69 main_v70 (addi : (⟨S850000, .i32⟩ : BufTy).Contents (Elt F) → (⟨S850000, .i32⟩ : BufTy).Contents (Elt F) → (⟨S850000, .i32⟩ : BufTy).Contents (Elt F)),
    ternary main_v68 main_v70 main_v5 main_v71 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v71 main_v72 (broadcastInDim S850000x1 ![0] bcast_S850000_S850000x1_0 : (⟨S850000, .i32⟩ : BufTy).Contents (Elt F) → (⟨S850000x1, .i32⟩ : BufTy).Contents (Elt F)),
    binary main_v66 main_v72 main_v73 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v74 (broadcastInDim S850000x1 ![0] bcast_S850000_S850000x1_0 : (⟨S850000, .f32⟩ : BufTy).Contents (Elt F) → (⟨S850000x1, .f32⟩ : BufTy).Contents (Elt F)),
    unary main_v74 main_v75 (broadcastInDim S850000x128 ![0, 1] bcast_S850000x1_S850000x128_0_1 : (⟨S850000x1, .f32⟩ : BufTy).Contents (Elt F) → (⟨S850000x128, .f32⟩ : BufTy).Contents (Elt F)),
    binary main_v73 main_v75 main_v76 (mulf : (⟨S850000x128, .f32⟩ : BufTy).Contents (Elt F) → (⟨S850000x128, .f32⟩ : BufTy).Contents (Elt F) → (⟨S850000x128, .f32⟩ : BufTy).Contents (Elt F)),
    nullary main_cst_14 (constant S_ .f32 0x00000000#32),
    unary main_cst_14 main_v77 (broadcastInDim S50000x128 ![] bcast_S_S50000x128 : (⟨S_, .f32⟩ : BufTy).Contents (Elt F) → (⟨S50000x128, .f32⟩ : BufTy).Contents (Elt F)),
    unary main_v6 main_v78 (broadcastInDim S850000x1 ![0] bcast_S850000_S850000x1_0 : (⟨S850000, .i32⟩ : BufTy).Contents (Elt F) → (⟨S850000x1, .i32⟩ : BufTy).Contents (Elt F)),
    ternary main_v77 main_v78 main_v76 main_v79 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg7 main_v80 (broadcastInDim S1x128 ![1] bcast_S128_S1x128_1 : (⟨S128, .f32⟩ : BufTy).Contents (Elt F) → (⟨S1x128, .f32⟩ : BufTy).Contents (Elt F)),
    unary main_v80 main_v81 (broadcastInDim S50000x128 ![0, 1] bcast_S1x128_S50000x128_0_1 : (⟨S1x128, .f32⟩ : BufTy).Contents (Elt F) → (⟨S50000x128, .f32⟩ : BufTy).Contents (Elt F)),
    binary main_v79 main_v81 main_v82 (addf : (⟨S50000x128, .f32⟩ : BufTy).Contents (Elt F) → (⟨S50000x128, .f32⟩ : BufTy).Contents (Elt F) → (⟨S50000x128, .f32⟩ : BufTy).Contents (Elt F)) ]

/-- The stretch that builds the indices, the degree, where it is positive and its inverse root. -/
abbrev opsP0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_v4 (iotaInDim S50000 32 0),
    binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32) ]

/-- The stretch that builds the selection of the per-node factors (the called function's operations). -/
abbrev opsP1 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select ]

/-- The stretch that builds the edge weights. -/
abbrev opsP2 : List (HloOp τ sig (Elt F)) :=
  [ nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v5 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v5 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v5 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)) ]

/-- The stretch that builds the first layer's contraction. -/
abbrev opsD1 : List (HloOp τ sig (Elt F)) :=
  [ binary main_arg0 main_arg2 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The stretch that builds the first layer's aggregation. -/
abbrev opsG1 : List (HloOp τ sig (Elt F)) :=
  [ nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v5 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v5 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v5 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v30 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

/-- The stretch that builds the first layer's bias and activation. -/
abbrev opsB1 : List (HloOp τ sig (Elt F)) :=
  [ unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf ]

/-- The stretch that builds the second layer's contraction. -/
abbrev opsD2 : List (HloOp τ sig (Elt F)) :=
  [ binary main_v47 main_arg4 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The stretch that builds the second layer's aggregation. -/
abbrev opsG2 : List (HloOp τ sig (Elt F)) :=
  [ nullary main_c_9 (constantI S_ 32 0#32),
    unary main_c_9 main_v49 (broadcastInDim S850000 ![] bcast_S_S850000 : (⟨S_, .i32⟩ : BufTy).Contents (Elt F) → (⟨S850000, .i32⟩ : BufTy).Contents (Elt F)),
    binary main_v5 main_v49 main_v50 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v51 (broadcastInDim S850000 ![] bcast_S_S850000 : (⟨S_, .i32⟩ : BufTy).Contents (Elt F) → (⟨S850000, .i32⟩ : BufTy).Contents (Elt F)),
    binary main_v5 main_v51 main_v52 (addi : (⟨S850000, .i32⟩ : BufTy).Contents (Elt F) → (⟨S850000, .i32⟩ : BufTy).Contents (Elt F) → (⟨S850000, .i32⟩ : BufTy).Contents (Elt F)),
    ternary main_v50 main_v52 main_v5 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v53 main_v54 (broadcastInDim S850000x1 ![0] bcast_S850000_S850000x1_0 : (⟨S850000, .i32⟩ : BufTy).Contents (Elt F) → (⟨S850000x1, .i32⟩ : BufTy).Contents (Elt F)),
    binary main_v48 main_v54 main_v55 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v56 (broadcastInDim S850000x1 ![0] bcast_S850000_S850000x1_0 : (⟨S850000, .f32⟩ : BufTy).Contents (Elt F) → (⟨S850000x1, .f32⟩ : BufTy).Contents (Elt F)),
    unary main_v56 main_v57 (broadcastInDim S850000x128 ![0, 1] bcast_S850000x1_S850000x128_0_1 : (⟨S850000x1, .f32⟩ : BufTy).Contents (Elt F) → (⟨S850000x128, .f32⟩ : BufTy).Contents (Elt F)),
    binary main_v55 main_v57 main_v58 (mulf : (⟨S850000x128, .f32⟩ : BufTy).Contents (Elt F) → (⟨S850000x128, .f32⟩ : BufTy).Contents (Elt F) → (⟨S850000x128, .f32⟩ : BufTy).Contents (Elt F)),
    nullary main_cst_11 (constant S_ .f32 0x00000000#32),
    unary main_cst_11 main_v59 (broadcastInDim S50000x128 ![] bcast_S_S50000x128 : (⟨S_, .f32⟩ : BufTy).Contents (Elt F) → (⟨S50000x128, .f32⟩ : BufTy).Contents (Elt F)),
    unary main_v6 main_v60 (broadcastInDim S850000x1 ![0] bcast_S850000_S850000x1_0 : (⟨S850000, .i32⟩ : BufTy).Contents (Elt F) → (⟨S850000x1, .i32⟩ : BufTy).Contents (Elt F)),
    ternary main_v59 main_v60 main_v58 main_v61 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

/-- The stretch that builds the second layer's bias and activation. -/
abbrev opsB2 : List (HloOp τ sig (Elt F)) :=
  [ unary main_arg5 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1 : (⟨S1x128, .f32⟩ : BufTy).Contents (Elt F) → (⟨S50000x128, .f32⟩ : BufTy).Contents (Elt F)),
    binary main_v61 main_v63 main_v64 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v64) (TRef.of (T := ⟨S50000x128, .f32⟩) main_call2_v0) (TRef.of (T := ⟨S50000x128, .f32⟩) main_v65) maximumf ]

/-- The stretch that builds the third layer's contraction. -/
abbrev opsD3 : List (HloOp τ sig (Elt F)) :=
  [ binary main_v65 main_arg6 main_v66 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The stretch that builds the third layer's aggregation. -/
abbrev opsG3 : List (HloOp τ sig (Elt F)) :=
  [ nullary main_c_12 (constantI S_ 32 0#32),
    unary main_c_12 main_v67 (broadcastInDim S850000 ![] bcast_S_S850000 : (⟨S_, .i32⟩ : BufTy).Contents (Elt F) → (⟨S850000, .i32⟩ : BufTy).Contents (Elt F)),
    binary main_v5 main_v67 main_v68 (cmpi .slt : (⟨S850000, .i32⟩ : BufTy).Contents (Elt F) → (⟨S850000, .i32⟩ : BufTy).Contents (Elt F) → (⟨S850000, .i1⟩ : BufTy).Contents (Elt F)),
    nullary main_c_13 (constantI S_ 32 50000#32),
    unary main_c_13 main_v69 (broadcastInDim S850000 ![] bcast_S_S850000 : (⟨S_, .i32⟩ : BufTy).Contents (Elt F) → (⟨S850000, .i32⟩ : BufTy).Contents (Elt F)),
    binary main_v5 main_v69 main_v70 (addi : (⟨S850000, .i32⟩ : BufTy).Contents (Elt F) → (⟨S850000, .i32⟩ : BufTy).Contents (Elt F) → (⟨S850000, .i32⟩ : BufTy).Contents (Elt F)),
    ternary main_v68 main_v70 main_v5 main_v71 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v71 main_v72 (broadcastInDim S850000x1 ![0] bcast_S850000_S850000x1_0 : (⟨S850000, .i32⟩ : BufTy).Contents (Elt F) → (⟨S850000x1, .i32⟩ : BufTy).Contents (Elt F)),
    binary main_v66 main_v72 main_v73 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v74 (broadcastInDim S850000x1 ![0] bcast_S850000_S850000x1_0 : (⟨S850000, .f32⟩ : BufTy).Contents (Elt F) → (⟨S850000x1, .f32⟩ : BufTy).Contents (Elt F)),
    unary main_v74 main_v75 (broadcastInDim S850000x128 ![0, 1] bcast_S850000x1_S850000x128_0_1 : (⟨S850000x1, .f32⟩ : BufTy).Contents (Elt F) → (⟨S850000x128, .f32⟩ : BufTy).Contents (Elt F)),
    binary main_v73 main_v75 main_v76 (mulf : (⟨S850000x128, .f32⟩ : BufTy).Contents (Elt F) → (⟨S850000x128, .f32⟩ : BufTy).Contents (Elt F) → (⟨S850000x128, .f32⟩ : BufTy).Contents (Elt F)),
    nullary main_cst_14 (constant S_ .f32 0x00000000#32),
    unary main_cst_14 main_v77 (broadcastInDim S50000x128 ![] bcast_S_S50000x128 : (⟨S_, .f32⟩ : BufTy).Contents (Elt F) → (⟨S50000x128, .f32⟩ : BufTy).Contents (Elt F)),
    unary main_v6 main_v78 (broadcastInDim S850000x1 ![0] bcast_S850000_S850000x1_0 : (⟨S850000, .i32⟩ : BufTy).Contents (Elt F) → (⟨S850000x1, .i32⟩ : BufTy).Contents (Elt F)),
    ternary main_v77 main_v78 main_v76 main_v79 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

/-- The stretch that builds the third layer's bias. -/
abbrev opsB3 : List (HloOp τ sig (Elt F)) :=
  [ unary main_arg7 main_v80 (broadcastInDim S1x128 ![1] bcast_S128_S1x128_1 : (⟨S128, .f32⟩ : BufTy).Contents (Elt F) → (⟨S1x128, .f32⟩ : BufTy).Contents (Elt F)),
    unary main_v80 main_v81 (broadcastInDim S50000x128 ![0, 1] bcast_S1x128_S50000x128_0_1 : (⟨S1x128, .f32⟩ : BufTy).Contents (Elt F) → (⟨S50000x128, .f32⟩ : BufTy).Contents (Elt F)),
    binary main_v79 main_v81 main_v82 (addf : (⟨S50000x128, .f32⟩ : BufTy).Contents (Elt F) → (⟨S50000x128, .f32⟩ : BufTy).Contents (Elt F) → (⟨S50000x128, .f32⟩ : BufTy).Contents (Elt F)) ]

theorem ops_split : (ops : List (HloOp τ sig (Elt F))) = opsP0 ++ (opsP1 ++ (opsP2 ++ (opsD1 ++ (opsG1 ++ (opsB1 ++ (opsD2 ++ (opsG2 ++ (opsB2 ++ (opsD3 ++ (opsG3 ++ (opsB3))))))))))) := rfl

/-- A fold through two stretches is the fold through the second of the fold through the first. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

end Cert.ReferenceIdeal.HandRun

end
-- ==== Proof.RefSpec.lean ====
/-
  The tail of a reference layer as a function of the aggregated array and the bias: the broadcast bias added, and for
  the first two layers the larger of the sum and zero.  A reference layer is this tail of the aggregation of the
  whole contraction.
-/
import proofs.«112825_j71571335020554_1_alg».proof.Proof.Spec

set_option maxRecDepth 8192

noncomputable section

namespace Cert.Spec

open Cert.ReferenceIdeal Cert.ReferenceIdeal.Gen Idealize.ShloMosaic Idealize.ShloMosaic.StableHlo

variable {F : FTy → Type} [FloatOps F]

/-- The bias added to every row, then the larger of that and zero. -/
def actR (a : (⟨S50000x128, .f32⟩ : BufTy).Contents (Elt F)) (b : (⟨S128, .f32⟩ : BufTy).Contents (Elt F)) : (⟨S50000x128, .f32⟩ : BufTy).Contents (Elt F) :=
  ((maximumf) (((addf : (⟨S50000x128, .f32⟩ : BufTy).Contents (Elt F) → (⟨S50000x128, .f32⟩ : BufTy).Contents (Elt F) → (⟨S50000x128, .f32⟩ : BufTy).Contents (Elt F))) a (biasR (F := F) b) : (⟨S50000x128, .f32⟩ : BufTy).Contents (Elt F)) (zeroR (F := F)) : (⟨S50000x128, .f32⟩ : BufTy).Contents (Elt F))

/-- The bias added to every row. -/
def lastR (a : (⟨S50000x128, .f32⟩ : BufTy).Contents (Elt F)) (b : (⟨S128, .f32⟩ : BufTy).Contents (Elt F)) : (⟨S50000x128, .f32⟩ : BufTy).Contents (Elt F) :=
  (((addf : (⟨S50000x128, .f32⟩ : BufTy).Contents (Elt F) → (⟨S50000x128, .f32⟩ : BufTy).Contents (Elt F) → (⟨S50000x128, .f32⟩ : BufTy).Contents (Elt F))) a (biasR (F := F) b) : (⟨S50000x128, .f32⟩ : BufTy).Contents (Elt F))

theorem refLayer_eq (s d : (⟨S850000, .i32⟩ : BufTy).Contents (Elt F)) (n : (⟨S850000, .f32⟩ : BufTy).Contents (Elt F)) (h : (⟨S50000x128, .f32⟩ : BufTy).Contents (Elt F)) (w : (⟨S128x128, .f32⟩ : BufTy).Contents (Elt F)) (b : (⟨S128, .f32⟩ : BufTy).Contents (Elt F)) :
    refLayer (F := F) s d n h w b = actR (F := F) (aggOf (F := F) s d n (dotR (F := F) h w)) b := rfl

theorem refLast_eq (s d : (⟨S850000, .i32⟩ : BufTy).Contents (Elt F)) (n : (⟨S850000, .f32⟩ : BufTy).Contents (Elt F)) (h : (⟨S50000x128, .f32⟩ : BufTy).Contents (Elt F)) (w : (⟨S128x128, .f32⟩ : BufTy).Contents (Elt F)) (b : (⟨S128, .f32⟩ : BufTy).Contents (Elt F)) :
    refLast (F := F) s d n h w b = lastR (F := F) (aggOf (F := F) s d n (dotR (F := F) h w)) b := rfl

end Cert.Spec

end
-- ==== Proof.RefStretchA.lean ====
/-
  The reference's first two stretches, over any buffer contents V: the source and destination indices with the
  self-loops appended, where the degree is positive and its inverse root, the scalar zero; then the selection of the
  per-node factors.  No operation of either stretch writes an argument or, in the second, an index array.
-/
import proofs.«112825_j71571335020554_1_alg».proof.Proof.RefOps
import proofs.«112825_j71571335020554_1_alg».proof.Proof.RefSpec

set_option maxRecDepth 16384

noncomputable section

namespace Cert.ReferenceIdeal.StretchA

open Idealize.ShloMosaic Idealize.ShloMosaic.TcCoe Idealize.SL.Sem Idealize.ShloMosaic.StableHlo
open Cert.ReferenceIdeal Cert.ReferenceIdeal.Gen Cert.ReferenceIdeal.HandRun

variable (V : Valuation τ sig (Elt Ideal))

/-! ## The indices, the degree's sign and inverse root -/

theorem s0_v5 : after (opsP0 (F := Ideal)) V (Proc.devRef .tc main_v5) = Cert.Spec.srcs (F := Ideal) (V (Proc.devRef .tc main_arg1)) := by
  dsimp only [opsP0]
  after_results <;> rfl

theorem s0_v6 : after (opsP0 (F := Ideal)) V (Proc.devRef .tc main_v6) = Cert.Spec.dsts (F := Ideal) (V (Proc.devRef .tc main_arg1)) := by
  dsimp only [opsP0]
  after_results <;> rfl

theorem s0_v12 : after (opsP0 (F := Ideal)) V (Proc.devRef .tc main_v12) = Cert.Spec.posOf (F := Ideal) (Cert.Spec.dsts (F := Ideal) (V (Proc.devRef .tc main_arg1))) := by
  dsimp only [opsP0]
  after_results <;> rfl

theorem s0_v13 : after (opsP0 (F := Ideal)) V (Proc.devRef .tc main_v13) = Cert.Spec.rsqOf (F := Ideal) (Cert.Spec.dsts (F := Ideal) (V (Proc.devRef .tc main_arg1))) := by
  dsimp only [opsP0]
  after_results <;> rfl

theorem s0_cst_2 : after (opsP0 (F := Ideal)) V (Proc.devRef .tc main_cst_2) = Cert.Spec.zero0 (F := Ideal) := by
  dsimp only [opsP0]
  after_results <;> rfl

theorem s0_keep_arg1 : after (opsP0 (F := Ideal)) V (Proc.devRef .tc main_arg1) = V (Proc.devRef .tc main_arg1) := by
  dsimp only [opsP0]
  after_results <;> rfl

theorem s0_keep_arg0 : after (opsP0 (F := Ideal)) V (Proc.devRef .tc main_arg0) = V (Proc.devRef .tc main_arg0) := by
  dsimp only [opsP0]
  after_results <;> rfl

theorem s0_keep_arg2 : after (opsP0 (F := Ideal)) V (Proc.devRef .tc main_arg2) = V (Proc.devRef .tc main_arg2) := by
  dsimp only [opsP0]
  after_results <;> rfl

theorem s0_keep_arg3 : after (opsP0 (F := Ideal)) V (Proc.devRef .tc main_arg3) = V (Proc.devRef .tc main_arg3) := by
  dsimp only [opsP0]
  after_results <;> rfl

theorem s0_keep_arg4 : after (opsP0 (F := Ideal)) V (Proc.devRef .tc main_arg4) = V (Proc.devRef .tc main_arg4) := by
  dsimp only [opsP0]
  after_results <;> rfl

theorem s0_keep_arg5 : after (opsP0 (F := Ideal)) V (Proc.devRef .tc main_arg5) = V (Proc.devRef .tc main_arg5) := by
  dsimp only [opsP0]
  after_results <;> rfl

theorem s0_keep_arg6 : after (opsP0 (F := Ideal)) V (Proc.devRef .tc main_arg6) = V (Proc.devRef .tc main_arg6) := by
  dsimp only [opsP0]
  after_results <;> rfl

theorem s0_keep_arg7 : after (opsP0 (F := Ideal)) V (Proc.devRef .tc main_arg7) = V (Proc.devRef .tc main_arg7) := by
  dsimp only [opsP0]
  after_results <;> rfl

/-! ## The per-node factors -/

theorem s1_v14 : after (opsP1 (F := Ideal)) V (Proc.devRef .tc main_v14) = Cert.Spec.whereOf (F := Ideal) (V (Proc.devRef .tc main_v12)) (V (Proc.devRef .tc main_v13)) (V (Proc.devRef .tc main_cst_2)) := by
  dsimp only [opsP1]
  after_results <;> rfl

theorem s1_keep_v5 : after (opsP1 (F := Ideal)) V (Proc.devRef .tc main_v5) = V (Proc.devRef .tc main_v5) := by
  dsimp only [opsP1]
  after_results <;> rfl

theorem s1_keep_v6 : after (opsP1 (F := Ideal)) V (Proc.devRef .tc main_v6) = V (Proc.devRef .tc main_v6) := by
  dsimp only [opsP1]
  after_results <;> rfl

theorem s1_keep_arg0 : after (opsP1 (F := Ideal)) V (Proc.devRef .tc main_arg0) = V (Proc.devRef .tc main_arg0) := by
  dsimp only [opsP1]
  after_results <;> rfl

theorem s1_keep_arg2 : after (opsP1 (F := Ideal)) V (Proc.devRef .tc main_arg2) = V (Proc.devRef .tc main_arg2) := by
  dsimp only [opsP1]
  after_results <;> rfl

theorem s1_keep_arg3 : after (opsP1 (F := Ideal)) V (Proc.devRef .tc main_arg3) = V (Proc.devRef .tc main_arg3) := by
  dsimp only [opsP1]
  after_results <;> rfl

theorem s1_keep_arg4 : after (opsP1 (F := Ideal)) V (Proc.devRef .tc main_arg4) = V (Proc.devRef .tc main_arg4) := by
  dsimp only [opsP1]
  after_results <;> rfl

theorem s1_keep_arg5 : after (opsP1 (F := Ideal)) V (Proc.devRef .tc main_arg5) = V (Proc.devRef .tc main_arg5) := by
  dsimp only [opsP1]
  after_results <;> rfl

theorem s1_keep_arg6 : after (opsP1 (F := Ideal)) V (Proc.devRef .tc main_arg6) = V (Proc.devRef .tc main_arg6) := by
  dsimp only [opsP1]
  after_results <;> rfl

theorem s1_keep_arg7 : after (opsP1 (F := Ideal)) V (Proc.devRef .tc main_arg7) = V (Proc.devRef .tc main_arg7) := by
  dsimp only [opsP1]
  after_results <;> rfl

end Cert.ReferenceIdeal.StretchA

end
-- ==== Proof.RefStretchB.lean ====
/-
  The reference's third stretch, over any buffer contents V: each edge's weight from the per-node factors.  No
  operation of it writes an index array or an argument.
-/
import proofs.«112825_j71571335020554_1_alg».proof.Proof.RefOps
import proofs.«112825_j71571335020554_1_alg».proof.Proof.RefSpec

set_option maxRecDepth 16384

noncomputable section

namespace Cert.ReferenceIdeal.StretchB

open Idealize.ShloMosaic Idealize.ShloMosaic.TcCoe Idealize.SL.Sem Idealize.ShloMosaic.StableHlo
open Cert.ReferenceIdeal Cert.ReferenceIdeal.Gen Cert.ReferenceIdeal.HandRun

variable (V : Valuation τ sig (Elt Ideal))

/-! ## The edge weights -/

set_option maxHeartbeats 16000000 in
theorem s2_v29 : after (opsP2 (F := Ideal)) V (Proc.devRef .tc main_v29) = Cert.Spec.nrmOf (F := Ideal) (V (Proc.devRef .tc main_v5)) (V (Proc.devRef .tc main_v6)) (V (Proc.devRef .tc main_v14)) := by
  dsimp only [opsP2]
  after_results <;> rfl

theorem s2_keep_v5 : after (opsP2 (F := Ideal)) V (Proc.devRef .tc main_v5) = V (Proc.devRef .tc main_v5) := by
  dsimp only [opsP2]
  after_results <;> rfl

theorem s2_keep_v6 : after (opsP2 (F := Ideal)) V (Proc.devRef .tc main_v6) = V (Proc.devRef .tc main_v6) := by
  dsimp only [opsP2]
  after_results <;> rfl

theorem s2_keep_arg0 : after (opsP2 (F := Ideal)) V (Proc.devRef .tc main_arg0) = V (Proc.devRef .tc main_arg0) := by
  dsimp only [opsP2]
  after_results <;> rfl

theorem s2_keep_arg2 : after (opsP2 (F := Ideal)) V (Proc.devRef .tc main_arg2) = V (Proc.devRef .tc main_arg2) := by
  dsimp only [opsP2]
  after_results <;> rfl

theorem s2_keep_arg3 : after (opsP2 (F := Ideal)) V (Proc.devRef .tc main_arg3) = V (Proc.devRef .tc main_arg3) := by
  dsimp only [opsP2]
  after_results <;> rfl

theorem s2_keep_arg4 : after (opsP2 (F := Ideal)) V (Proc.devRef .tc main_arg4) = V (Proc.devRef .tc main_arg4) := by
  dsimp only [opsP2]
  after_results <;> rfl

theorem s2_keep_arg5 : after (opsP2 (F := Ideal)) V (Proc.devRef .tc main_arg5) = V (Proc.devRef .tc main_arg5) := by
  dsimp only [opsP2]
  after_results <;> rfl

theorem s2_keep_arg6 : after (opsP2 (F := Ideal)) V (Proc.devRef .tc main_arg6) = V (Proc.devRef .tc main_arg6) := by
  dsimp only [opsP2]
  after_results <;> rfl

theorem s2_keep_arg7 : after (opsP2 (F := Ideal)) V (Proc.devRef .tc main_arg7) = V (Proc.devRef .tc main_arg7) := by
  dsimp only [opsP2]
  after_results <;> rfl

end Cert.ReferenceIdeal.StretchB

end
-- ==== Proof.RefStretchD.lean ====
/-
  The reference's short stretches, over any buffer contents V: each layer's whole contraction, and each layer's tail
  (the broadcast bias added, and for the first two layers the larger of the sum and zero).  None of them writes an index
  array, the edge weights or an argument.
-/
import proofs.«112825_j71571335020554_1_alg».proof.Proof.RefOps
import proofs.«112825_j71571335020554_1_alg».proof.Proof.RefSpec

set_option maxRecDepth 16384

noncomputable section

namespace Cert.ReferenceIdeal.StretchD

open Idealize.ShloMosaic Idealize.ShloMosaic.TcCoe Idealize.SL.Sem Idealize.ShloMosaic.StableHlo
open Cert.ReferenceIdeal Cert.ReferenceIdeal.Gen Cert.ReferenceIdeal.HandRun

variable (V : Valuation τ sig (Elt Ideal))

/-! ## Layer 1's contraction -/

theorem d1_v30 : after (opsD1 (F := Ideal)) V (Proc.devRef .tc main_v30) = Cert.Spec.dotR (F := Ideal) (V (Proc.devRef .tc main_arg0)) (V (Proc.devRef .tc main_arg2)) := by
  dsimp only [opsD1]
  after_results <;> rfl

theorem d1_keep_v5 : after (opsD1 (F := Ideal)) V (Proc.devRef .tc main_v5) = V (Proc.devRef .tc main_v5) := by
  dsimp only [opsD1]
  after_results <;> rfl

theorem d1_keep_v6 : after (opsD1 (F := Ideal)) V (Proc.devRef .tc main_v6) = V (Proc.devRef .tc main_v6) := by
  dsimp only [opsD1]
  after_results <;> rfl

theorem d1_keep_v29 : after (opsD1 (F := Ideal)) V (Proc.devRef .tc main_v29) = V (Proc.devRef .tc main_v29) := by
  dsimp only [opsD1]
  after_results <;> rfl

theorem d1_keep_arg3 : after (opsD1 (F := Ideal)) V (Proc.devRef .tc main_arg3) = V (Proc.devRef .tc main_arg3) := by
  dsimp only [opsD1]
  after_results <;> rfl

theorem d1_keep_arg4 : after (opsD1 (F := Ideal)) V (Proc.devRef .tc main_arg4) = V (Proc.devRef .tc main_arg4) := by
  dsimp only [opsD1]
  after_results <;> rfl

theorem d1_keep_arg5 : after (opsD1 (F := Ideal)) V (Proc.devRef .tc main_arg5) = V (Proc.devRef .tc main_arg5) := by
  dsimp only [opsD1]
  after_results <;> rfl

theorem d1_keep_arg6 : after (opsD1 (F := Ideal)) V (Proc.devRef .tc main_arg6) = V (Proc.devRef .tc main_arg6) := by
  dsimp only [opsD1]
  after_results <;> rfl

theorem d1_keep_arg7 : after (opsD1 (F := Ideal)) V (Proc.devRef .tc main_arg7) = V (Proc.devRef .tc main_arg7) := by
  dsimp only [opsD1]
  after_results <;> rfl

/-! ## Layer 1's tail -/

theorem b1_v47 : after (opsB1 (F := Ideal)) V (Proc.devRef .tc main_v47) = Cert.Spec.actR (F := Ideal) (V (Proc.devRef .tc main_v43)) (V (Proc.devRef .tc main_arg3)) := by
  dsimp only [opsB1]
  after_results <;> rfl

theorem b1_keep_v5 : after (opsB1 (F := Ideal)) V (Proc.devRef .tc main_v5) = V (Proc.devRef .tc main_v5) := by
  dsimp only [opsB1]
  after_results <;> rfl

theorem b1_keep_v6 : after (opsB1 (F := Ideal)) V (Proc.devRef .tc main_v6) = V (Proc.devRef .tc main_v6) := by
  dsimp only [opsB1]
  after_results <;> rfl

theorem b1_keep_v29 : after (opsB1 (F := Ideal)) V (Proc.devRef .tc main_v29) = V (Proc.devRef .tc main_v29) := by
  dsimp only [opsB1]
  after_results <;> rfl

theorem b1_keep_arg4 : after (opsB1 (F := Ideal)) V (Proc.devRef .tc main_arg4) = V (Proc.devRef .tc main_arg4) := by
  dsimp only [opsB1]
  after_results <;> rfl

theorem b1_keep_arg5 : after (opsB1 (F := Ideal)) V (Proc.devRef .tc main_arg5) = V (Proc.devRef .tc main_arg5) := by
  dsimp only [opsB1]
  after_results <;> rfl

theorem b1_keep_arg6 : after (opsB1 (F := Ideal)) V (Proc.devRef .tc main_arg6) = V (Proc.devRef .tc main_arg6) := by
  dsimp only [opsB1]
  after_results <;> rfl

theorem b1_keep_arg7 : after (opsB1 (F := Ideal)) V (Proc.devRef .tc main_arg7) = V (Proc.devRef .tc main_arg7) := by
  dsimp only [opsB1]
  after_results <;> rfl

/-! ## Layer 2's contraction -/

theorem d2_v48 : after (opsD2 (F := Ideal)) V (Proc.devRef .tc main_v48) = Cert.Spec.dotR (F := Ideal) (V (Proc.devRef .tc main_v47)) (V (Proc.devRef .tc main_arg4)) := by
  dsimp only [opsD2]
  after_results <;> rfl

theorem d2_keep_v5 : after (opsD2 (F := Ideal)) V (Proc.devRef .tc main_v5) = V (Proc.devRef .tc main_v5) := by
  dsimp only [opsD2]
  after_results <;> rfl

theorem d2_keep_v6 : after (opsD2 (F := Ideal)) V (Proc.devRef .tc main_v6) = V (Proc.devRef .tc main_v6) := by
  dsimp only [opsD2]
  after_results <;> rfl

theorem d2_keep_v29 : after (opsD2 (F := Ideal)) V (Proc.devRef .tc main_v29) = V (Proc.devRef .tc main_v29) := by
  dsimp only [opsD2]
  after_results <;> rfl

theorem d2_keep_arg5 : after (opsD2 (F := Ideal)) V (Proc.devRef .tc main_arg5) = V (Proc.devRef .tc main_arg5) := by
  dsimp only [opsD2]
  after_results <;> rfl

theorem d2_keep_arg6 : after (opsD2 (F := Ideal)) V (Proc.devRef .tc main_arg6) = V (Proc.devRef .tc main_arg6) := by
  dsimp only [opsD2]
  after_results <;> rfl

theorem d2_keep_arg7 : after (opsD2 (F := Ideal)) V (Proc.devRef .tc main_arg7) = V (Proc.devRef .tc main_arg7) := by
  dsimp only [opsD2]
  after_results <;> rfl

/-! ## Layer 2's tail -/

theorem b2_v65 : after (opsB2 (F := Ideal)) V (Proc.devRef .tc main_v65) = Cert.Spec.actR (F := Ideal) (V (Proc.devRef .tc main_v61)) (V (Proc.devRef .tc main_arg5)) := by
  dsimp only [opsB2]
  after_results <;> rfl

theorem b2_keep_v5 : after (opsB2 (F := Ideal)) V (Proc.devRef .tc main_v5) = V (Proc.devRef .tc main_v5) := by
  dsimp only [opsB2]
  after_results <;> rfl

theorem b2_keep_v6 : after (opsB2 (F := Ideal)) V (Proc.devRef .tc main_v6) = V (Proc.devRef .tc main_v6) := by
  dsimp only [opsB2]
  after_results <;> rfl

theorem b2_keep_v29 : after (opsB2 (F := Ideal)) V (Proc.devRef .tc main_v29) = V (Proc.devRef .tc main_v29) := by
  dsimp only [opsB2]
  after_results <;> rfl

theorem b2_keep_arg6 : after (opsB2 (F := Ideal)) V (Proc.devRef .tc main_arg6) = V (Proc.devRef .tc main_arg6) := by
  dsimp only [opsB2]
  after_results <;> rfl

theorem b2_keep_arg7 : after (opsB2 (F := Ideal)) V (Proc.devRef .tc main_arg7) = V (Proc.devRef .tc main_arg7) := by
  dsimp only [opsB2]
  after_results <;> rfl

/-! ## Layer 3's contraction -/

theorem d3_v66 : after (opsD3 (F := Ideal)) V (Proc.devRef .tc main_v66) = Cert.Spec.dotR (F := Ideal) (V (Proc.devRef .tc main_v65)) (V (Proc.devRef .tc main_arg6)) := by
  dsimp only [opsD3]
  after_results <;> rfl

theorem d3_keep_v5 : after (opsD3 (F := Ideal)) V (Proc.devRef .tc main_v5) = V (Proc.devRef .tc main_v5) := by
  dsimp only [opsD3]
  after_results <;> rfl

theorem d3_keep_v6 : after (opsD3 (F := Ideal)) V (Proc.devRef .tc main_v6) = V (Proc.devRef .tc main_v6) := by
  dsimp only [opsD3]
  after_results <;> rfl

theorem d3_keep_v29 : after (opsD3 (F := Ideal)) V (Proc.devRef .tc main_v29) = V (Proc.devRef .tc main_v29) := by
  dsimp only [opsD3]
  after_results <;> rfl

theorem d3_keep_arg7 : after (opsD3 (F := Ideal)) V (Proc.devRef .tc main_arg7) = V (Proc.devRef .tc main_arg7) := by
  dsimp only [opsD3]
  after_results <;> rfl

/-! ## Layer 3's tail -/

theorem b3_v82 : after (opsB3 (F := Ideal)) V (Proc.devRef .tc main_v82) = Cert.Spec.lastR (F := Ideal) (V (Proc.devRef .tc main_v79)) (V (Proc.devRef .tc main_arg7)) := by
  dsimp only [opsB3]
  after_results <;> rfl

end Cert.ReferenceIdeal.StretchD

end
-- ==== Proof.RefStretchG1.lean ====
/-
  Layer 1's aggregation in the reference, over any buffer contents V: for every edge the source's row of the
  contraction scaled by the edge's weight, added into the destination's row.  No operation of it writes an index array,
  the edge weights or an argument.
-/
import proofs.«112825_j71571335020554_1_alg».proof.Proof.RefOps
import proofs.«112825_j71571335020554_1_alg».proof.Proof.RefSpec

set_option maxRecDepth 16384

noncomputable section

namespace Cert.ReferenceIdeal.StretchG1

open Idealize.ShloMosaic Idealize.ShloMosaic.TcCoe Idealize.SL.Sem Idealize.ShloMosaic.StableHlo
open Cert.ReferenceIdeal Cert.ReferenceIdeal.Gen Cert.ReferenceIdeal.HandRun

variable (V : Valuation τ sig (Elt Ideal))

/-! ## Layer 1's aggregation -/

set_option maxHeartbeats 16000000 in
theorem g1_v43 : after (opsG1 (F := Ideal)) V (Proc.devRef .tc main_v43) = Cert.Spec.aggOf (F := Ideal) (V (Proc.devRef .tc main_v5)) (V (Proc.devRef .tc main_v6)) (V (Proc.devRef .tc main_v29)) (V (Proc.devRef .tc main_v30)) := by
  dsimp only [opsG1]
  after_results <;> rfl

theorem g1_keep_v5 : after (opsG1 (F := Ideal)) V (Proc.devRef .tc main_v5) = V (Proc.devRef .tc main_v5) := by
  dsimp only [opsG1]
  after_results <;> rfl

theorem g1_keep_v6 : after (opsG1 (F := Ideal)) V (Proc.devRef .tc main_v6) = V (Proc.devRef .tc main_v6) := by
  dsimp only [opsG1]
  after_results <;> rfl

theorem g1_keep_v29 : after (opsG1 (F := Ideal)) V (Proc.devRef .tc main_v29) = V (Proc.devRef .tc main_v29) := by
  dsimp only [opsG1]
  after_results <;> rfl

theorem g1_keep_arg3 : after (opsG1 (F := Ideal)) V (Proc.devRef .tc main_arg3) = V (Proc.devRef .tc main_arg3) := by
  dsimp only [opsG1]
  after_results <;> rfl

theorem g1_keep_arg4 : after (opsG1 (F := Ideal)) V (Proc.devRef .tc main_arg4) = V (Proc.devRef .tc main_arg4) := by
  dsimp only [opsG1]
  after_results <;> rfl

theorem g1_keep_arg5 : after (opsG1 (F := Ideal)) V (Proc.devRef .tc main_arg5) = V (Proc.devRef .tc main_arg5) := by
  dsimp only [opsG1]
  after_results <;> rfl

theorem g1_keep_arg6 : after (opsG1 (F := Ideal)) V (Proc.devRef .tc main_arg6) = V (Proc.devRef .tc main_arg6) := by
  dsimp only [opsG1]
  after_results <;> rfl

theorem g1_keep_arg7 : after (opsG1 (F := Ideal)) V (Proc.devRef .tc main_arg7) = V (Proc.devRef .tc main_arg7) := by
  dsimp only [opsG1]
  after_results <;> rfl

end Cert.ReferenceIdeal.StretchG1

end
-- ==== Proof.RefStretchG2.lean ====
/-
  Layer 2's aggregation in the reference, over any buffer contents V: for every edge the source's row of the
  contraction scaled by the edge's weight, added into the destination's row.  No operation of it writes an index array,
  the edge weights or an argument.
-/
import proofs.«112825_j71571335020554_1_alg».proof.Proof.RefOps
import proofs.«112825_j71571335020554_1_alg».proof.Proof.RefSpec

set_option maxRecDepth 16384

noncomputable section

namespace Cert.ReferenceIdeal.StretchG2

open Idealize.ShloMosaic Idealize.ShloMosaic.TcCoe Idealize.SL.Sem Idealize.ShloMosaic.StableHlo
open Cert.ReferenceIdeal Cert.ReferenceIdeal.Gen Cert.ReferenceIdeal.HandRun

variable (V : Valuation τ sig (Elt Ideal))

/-! ## Layer 2's aggregation -/

set_option maxHeartbeats 16000000 in
theorem g2_v61 : after (opsG2 (F := Ideal)) V (Proc.devRef .tc main_v61) = Cert.Spec.aggOf (F := Ideal) (V (Proc.devRef .tc main_v5)) (V (Proc.devRef .tc main_v6)) (V (Proc.devRef .tc main_v29)) (V (Proc.devRef .tc main_v48)) := by
  dsimp only [opsG2]
  after_results <;> rfl

theorem g2_keep_v5 : after (opsG2 (F := Ideal)) V (Proc.devRef .tc main_v5) = V (Proc.devRef .tc main_v5) := by
  dsimp only [opsG2]
  after_results <;> rfl

theorem g2_keep_v6 : after (opsG2 (F := Ideal)) V (Proc.devRef .tc main_v6) = V (Proc.devRef .tc main_v6) := by
  dsimp only [opsG2]
  after_results <;> rfl

theorem g2_keep_v29 : after (opsG2 (F := Ideal)) V (Proc.devRef .tc main_v29) = V (Proc.devRef .tc main_v29) := by
  dsimp only [opsG2]
  after_results <;> rfl

theorem g2_keep_arg5 : after (opsG2 (F := Ideal)) V (Proc.devRef .tc main_arg5) = V (Proc.devRef .tc main_arg5) := by
  dsimp only [opsG2]
  after_results <;> rfl

theorem g2_keep_arg6 : after (opsG2 (F := Ideal)) V (Proc.devRef .tc main_arg6) = V (Proc.devRef .tc main_arg6) := by
  dsimp only [opsG2]
  after_results <;> rfl

theorem g2_keep_arg7 : after (opsG2 (F := Ideal)) V (Proc.devRef .tc main_arg7) = V (Proc.devRef .tc main_arg7) := by
  dsimp only [opsG2]
  after_results <;> rfl

end Cert.ReferenceIdeal.StretchG2

end
-- ==== Proof.RefStretchG3.lean ====
/-
  Layer 3's aggregation in the reference, over any buffer contents V: for every edge the source's row of the
  contraction scaled by the edge's weight, added into the destination's row.  No operation of it writes an index array,
  the edge weights or an argument.
-/
import proofs.«112825_j71571335020554_1_alg».proof.Proof.RefOps
import proofs.«112825_j71571335020554_1_alg».proof.Proof.RefSpec

set_option maxRecDepth 16384

noncomputable section

namespace Cert.ReferenceIdeal.StretchG3

open Idealize.ShloMosaic Idealize.ShloMosaic.TcCoe Idealize.SL.Sem Idealize.ShloMosaic.StableHlo
open Cert.ReferenceIdeal Cert.ReferenceIdeal.Gen Cert.ReferenceIdeal.HandRun

variable (V : Valuation τ sig (Elt Ideal))

/-! ## Layer 3's aggregation -/

set_option maxHeartbeats 16000000 in
theorem g3_v79 : after (opsG3 (F := Ideal)) V (Proc.devRef .tc main_v79) = Cert.Spec.aggOf (F := Ideal) (V (Proc.devRef .tc main_v5)) (V (Proc.devRef .tc main_v6)) (V (Proc.devRef .tc main_v29)) (V (Proc.devRef .tc main_v66)) := by
  dsimp only [opsG3]
  after_results <;> rfl

theorem g3_keep_arg7 : after (opsG3 (F := Ideal)) V (Proc.devRef .tc main_arg7) = V (Proc.devRef .tc main_arg7) := by
  dsimp only [opsG3]
  after_results <;> rfl

end Cert.ReferenceIdeal.StretchG3

end
-- ==== Proof.RefRun.lean ====
/-
  The reference's run, read back.

  Every weakly fair execution of the reference terminates with each buffer at the fold of its 106 operations' functions
  over the launch contents.  Read stretch by stretch — the indices, the per-node factors, the edge weights, then each
  layer's contraction, aggregation and tail — that fold leaves in the result buffer the composed value `Spec.refVal` of the eight argument arrays;
  no operation writes an argument.
-/
import proofs.«112825_j71571335020554_1_alg».proof.Proof.RefOps
import proofs.«112825_j71571335020554_1_alg».proof.Proof.RefSpec
import proofs.«112825_j71571335020554_1_alg».proof.Proof.RefStretchA
import proofs.«112825_j71571335020554_1_alg».proof.Proof.RefStretchB
import proofs.«112825_j71571335020554_1_alg».proof.Proof.RefStretchD
import proofs.«112825_j71571335020554_1_alg».proof.Proof.RefStretchG1
import proofs.«112825_j71571335020554_1_alg».proof.Proof.RefStretchG2
import proofs.«112825_j71571335020554_1_alg».proof.Proof.RefStretchG3

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo

section Read

variable (m : (ℓ : Loc nD τ sig) → Buf (Elt Ideal) ℓ) (c : Dev nD)

/-- Launch argument 0, as an array. -/
abbrev A0 : (⟨S50000x128, .f32⟩ : BufTy).Contents (Elt Ideal) := m ((c.tc : Thread nD τ).loc main_arg0)
/-- Launch argument 1, as an array. -/
abbrev A1 : (⟨S2x800000, .i32⟩ : BufTy).Contents (Elt Ideal) := m ((c.tc : Thread nD τ).loc main_arg1)
/-- Launch argument 2, as an array. -/
abbrev A2 : (⟨S128x128, .f32⟩ : BufTy).Contents (Elt Ideal) := m ((c.tc : Thread nD τ).loc main_arg2)
/-- Launch argument 3, as an array. -/
abbrev A3 : (⟨S128, .f32⟩ : BufTy).Contents (Elt Ideal) := m ((c.tc : Thread nD τ).loc main_arg3)
/-- Launch argument 4, as an array. -/
abbrev A4 : (⟨S128x128, .f32⟩ : BufTy).Contents (Elt Ideal) := m ((c.tc : Thread nD τ).loc main_arg4)
/-- Launch argument 5, as an array. -/
abbrev A5 : (⟨S128, .f32⟩ : BufTy).Contents (Elt Ideal) := m ((c.tc : Thread nD τ).loc main_arg5)
/-- Launch argument 6, as an array. -/
abbrev A6 : (⟨S128x128, .f32⟩ : BufTy).Contents (Elt Ideal) := m ((c.tc : Thread nD τ).loc main_arg6)
/-- Launch argument 7, as an array. -/
abbrev A7 : (⟨S128, .f32⟩ : BufTy).Contents (Elt Ideal) := m ((c.tc : Thread nD τ).loc main_arg7)

/-- The buffers at launch, and after each stretch. -/
abbrev R0 : Valuation τ sig (Elt Ideal) := launchContents m c
abbrev R1 : Valuation τ sig (Elt Ideal) := after opsP0 (R0 m c)
abbrev R2 : Valuation τ sig (Elt Ideal) := after opsP1 (R1 m c)
abbrev R3 : Valuation τ sig (Elt Ideal) := after opsP2 (R2 m c)
abbrev R4 : Valuation τ sig (Elt Ideal) := after opsD1 (R3 m c)
abbrev R5 : Valuation τ sig (Elt Ideal) := after opsG1 (R4 m c)
abbrev R6 : Valuation τ sig (Elt Ideal) := after opsB1 (R5 m c)
abbrev R7 : Valuation τ sig (Elt Ideal) := after opsD2 (R6 m c)
abbrev R8 : Valuation τ sig (Elt Ideal) := after opsG2 (R7 m c)
abbrev R9 : Valuation τ sig (Elt Ideal) := after opsB2 (R8 m c)
abbrev R10 : Valuation τ sig (Elt Ideal) := after opsD3 (R9 m c)
abbrev R11 : Valuation τ sig (Elt Ideal) := after opsG3 (R10 m c)
abbrev R12 : Valuation τ sig (Elt Ideal) := after opsB3 (R11 m c)

/-! ## The indices, the degree's sign and inverse root -/

theorem atR1_v5 : R1 m c (Proc.devRef .tc main_v5) = (Cert.Spec.srcs (F := Ideal) (A1 m c)) :=
  StretchA.s0_v5 (R0 m c)

theorem atR1_v6 : R1 m c (Proc.devRef .tc main_v6) = (Cert.Spec.dsts (F := Ideal) (A1 m c)) :=
  StretchA.s0_v6 (R0 m c)

theorem atR1_v12 : R1 m c (Proc.devRef .tc main_v12) = (Cert.Spec.posOf (F := Ideal) (Cert.Spec.dsts (F := Ideal) (A1 m c))) :=
  StretchA.s0_v12 (R0 m c)

theorem atR1_v13 : R1 m c (Proc.devRef .tc main_v13) = (Cert.Spec.rsqOf (F := Ideal) (Cert.Spec.dsts (F := Ideal) (A1 m c))) :=
  StretchA.s0_v13 (R0 m c)

theorem atR1_cst_2 : R1 m c (Proc.devRef .tc main_cst_2) = (Cert.Spec.zero0 (F := Ideal)) :=
  StretchA.s0_cst_2 (R0 m c)

theorem atR1_arg0 : R1 m c (Proc.devRef .tc main_arg0) = (A0 m c) :=
  StretchA.s0_keep_arg0 (R0 m c)

theorem atR1_arg2 : R1 m c (Proc.devRef .tc main_arg2) = (A2 m c) :=
  StretchA.s0_keep_arg2 (R0 m c)

theorem atR1_arg3 : R1 m c (Proc.devRef .tc main_arg3) = (A3 m c) :=
  StretchA.s0_keep_arg3 (R0 m c)

theorem atR1_arg4 : R1 m c (Proc.devRef .tc main_arg4) = (A4 m c) :=
  StretchA.s0_keep_arg4 (R0 m c)

theorem atR1_arg5 : R1 m c (Proc.devRef .tc main_arg5) = (A5 m c) :=
  StretchA.s0_keep_arg5 (R0 m c)

theorem atR1_arg6 : R1 m c (Proc.devRef .tc main_arg6) = (A6 m c) :=
  StretchA.s0_keep_arg6 (R0 m c)

theorem atR1_arg7 : R1 m c (Proc.devRef .tc main_arg7) = (A7 m c) :=
  StretchA.s0_keep_arg7 (R0 m c)

/-! ## The per-node factors -/

theorem atR2_v14 : R2 m c (Proc.devRef .tc main_v14) = (Cert.Spec.dinv (F := Ideal) (Cert.Spec.dsts (F := Ideal) (A1 m c))) :=
  (StretchA.s1_v14 (R1 m c)).trans (by rw [atR1_v12, atR1_v13, atR1_cst_2]; rfl)

theorem atR2_v5 : R2 m c (Proc.devRef .tc main_v5) = (Cert.Spec.srcs (F := Ideal) (A1 m c)) :=
  (StretchA.s1_keep_v5 (R1 m c)).trans (atR1_v5 m c)

theorem atR2_v6 : R2 m c (Proc.devRef .tc main_v6) = (Cert.Spec.dsts (F := Ideal) (A1 m c)) :=
  (StretchA.s1_keep_v6 (R1 m c)).trans (atR1_v6 m c)

theorem atR2_arg0 : R2 m c (Proc.devRef .tc main_arg0) = (A0 m c) :=
  (StretchA.s1_keep_arg0 (R1 m c)).trans (atR1_arg0 m c)

theorem atR2_arg2 : R2 m c (Proc.devRef .tc main_arg2) = (A2 m c) :=
  (StretchA.s1_keep_arg2 (R1 m c)).trans (atR1_arg2 m c)

theorem atR2_arg3 : R2 m c (Proc.devRef .tc main_arg3) = (A3 m c) :=
  (StretchA.s1_keep_arg3 (R1 m c)).trans (atR1_arg3 m c)

theorem atR2_arg4 : R2 m c (Proc.devRef .tc main_arg4) = (A4 m c) :=
  (StretchA.s1_keep_arg4 (R1 m c)).trans (atR1_arg4 m c)

theorem atR2_arg5 : R2 m c (Proc.devRef .tc main_arg5) = (A5 m c) :=
  (StretchA.s1_keep_arg5 (R1 m c)).trans (atR1_arg5 m c)

theorem atR2_arg6 : R2 m c (Proc.devRef .tc main_arg6) = (A6 m c) :=
  (StretchA.s1_keep_arg6 (R1 m c)).trans (atR1_arg6 m c)

theorem atR2_arg7 : R2 m c (Proc.devRef .tc main_arg7) = (A7 m c) :=
  (StretchA.s1_keep_arg7 (R1 m c)).trans (atR1_arg7 m c)

/-! ## The edge weights -/

theorem atR3_v29 : R3 m c (Proc.devRef .tc main_v29) = (Cert.Spec.nrm (F := Ideal) (Cert.Spec.srcs (F := Ideal) (A1 m c)) (Cert.Spec.dsts (F := Ideal) (A1 m c))) :=
  (StretchB.s2_v29 (R2 m c)).trans (by rw [atR2_v5, atR2_v6, atR2_v14]; rfl)

theorem atR3_v5 : R3 m c (Proc.devRef .tc main_v5) = (Cert.Spec.srcs (F := Ideal) (A1 m c)) :=
  (StretchB.s2_keep_v5 (R2 m c)).trans (atR2_v5 m c)

theorem atR3_v6 : R3 m c (Proc.devRef .tc main_v6) = (Cert.Spec.dsts (F := Ideal) (A1 m c)) :=
  (StretchB.s2_keep_v6 (R2 m c)).trans (atR2_v6 m c)

theorem atR3_arg0 : R3 m c (Proc.devRef .tc main_arg0) = (A0 m c) :=
  (StretchB.s2_keep_arg0 (R2 m c)).trans (atR2_arg0 m c)

theorem atR3_arg2 : R3 m c (Proc.devRef .tc main_arg2) = (A2 m c) :=
  (StretchB.s2_keep_arg2 (R2 m c)).trans (atR2_arg2 m c)

theorem atR3_arg3 : R3 m c (Proc.devRef .tc main_arg3) = (A3 m c) :=
  (StretchB.s2_keep_arg3 (R2 m c)).trans (atR2_arg3 m c)

theorem atR3_arg4 : R3 m c (Proc.devRef .tc main_arg4) = (A4 m c) :=
  (StretchB.s2_keep_arg4 (R2 m c)).trans (atR2_arg4 m c)

theorem atR3_arg5 : R3 m c (Proc.devRef .tc main_arg5) = (A5 m c) :=
  (StretchB.s2_keep_arg5 (R2 m c)).trans (atR2_arg5 m c)

theorem atR3_arg6 : R3 m c (Proc.devRef .tc main_arg6) = (A6 m c) :=
  (StretchB.s2_keep_arg6 (R2 m c)).trans (atR2_arg6 m c)

theorem atR3_arg7 : R3 m c (Proc.devRef .tc main_arg7) = (A7 m c) :=
  (StretchB.s2_keep_arg7 (R2 m c)).trans (atR2_arg7 m c)

/-! ## Layer 1: the contraction, the aggregation, the tail -/

theorem atR4_v30 : R4 m c (Proc.devRef .tc main_v30) = (Cert.Spec.dotR (F := Ideal) (A0 m c) (A2 m c)) :=
  (StretchD.d1_v30 (R3 m c)).trans (by rw [atR3_arg0, atR3_arg2])

theorem atR4_v5 : R4 m c (Proc.devRef .tc main_v5) = (Cert.Spec.srcs (F := Ideal) (A1 m c)) :=
  (StretchD.d1_keep_v5 (R3 m c)).trans (atR3_v5 m c)

theorem atR4_v6 : R4 m c (Proc.devRef .tc main_v6) = (Cert.Spec.dsts (F := Ideal) (A1 m c)) :=
  (StretchD.d1_keep_v6 (R3 m c)).trans (atR3_v6 m c)

theorem atR4_v29 : R4 m c (Proc.devRef .tc main_v29) = (Cert.Spec.nrm (F := Ideal) (Cert.Spec.srcs (F := Ideal) (A1 m c)) (Cert.Spec.dsts (F := Ideal) (A1 m c))) :=
  (StretchD.d1_keep_v29 (R3 m c)).trans (atR3_v29 m c)

theorem atR4_arg3 : R4 m c (Proc.devRef .tc main_arg3) = (A3 m c) :=
  (StretchD.d1_keep_arg3 (R3 m c)).trans (atR3_arg3 m c)

theorem atR4_arg4 : R4 m c (Proc.devRef .tc main_arg4) = (A4 m c) :=
  (StretchD.d1_keep_arg4 (R3 m c)).trans (atR3_arg4 m c)

theorem atR4_arg5 : R4 m c (Proc.devRef .tc main_arg5) = (A5 m c) :=
  (StretchD.d1_keep_arg5 (R3 m c)).trans (atR3_arg5 m c)

theorem atR4_arg6 : R4 m c (Proc.devRef .tc main_arg6) = (A6 m c) :=
  (StretchD.d1_keep_arg6 (R3 m c)).trans (atR3_arg6 m c)

theorem atR4_arg7 : R4 m c (Proc.devRef .tc main_arg7) = (A7 m c) :=
  (StretchD.d1_keep_arg7 (R3 m c)).trans (atR3_arg7 m c)

theorem atR5_v43 : R5 m c (Proc.devRef .tc main_v43) = (Cert.Spec.aggOf (F := Ideal) (Cert.Spec.srcs (F := Ideal) (A1 m c)) (Cert.Spec.dsts (F := Ideal) (A1 m c)) (Cert.Spec.nrm (F := Ideal) (Cert.Spec.srcs (F := Ideal) (A1 m c)) (Cert.Spec.dsts (F := Ideal) (A1 m c))) (Cert.Spec.dotR (F := Ideal) (A0 m c) (A2 m c))) :=
  (StretchG1.g1_v43 (R4 m c)).trans (by rw [atR4_v5, atR4_v6, atR4_v29, atR4_v30])

theorem atR5_v5 : R5 m c (Proc.devRef .tc main_v5) = (Cert.Spec.srcs (F := Ideal) (A1 m c)) :=
  (StretchG1.g1_keep_v5 (R4 m c)).trans (atR4_v5 m c)

theorem atR5_v6 : R5 m c (Proc.devRef .tc main_v6) = (Cert.Spec.dsts (F := Ideal) (A1 m c)) :=
  (StretchG1.g1_keep_v6 (R4 m c)).trans (atR4_v6 m c)

theorem atR5_v29 : R5 m c (Proc.devRef .tc main_v29) = (Cert.Spec.nrm (F := Ideal) (Cert.Spec.srcs (F := Ideal) (A1 m c)) (Cert.Spec.dsts (F := Ideal) (A1 m c))) :=
  (StretchG1.g1_keep_v29 (R4 m c)).trans (atR4_v29 m c)

theorem atR5_arg3 : R5 m c (Proc.devRef .tc main_arg3) = (A3 m c) :=
  (StretchG1.g1_keep_arg3 (R4 m c)).trans (atR4_arg3 m c)

theorem atR5_arg4 : R5 m c (Proc.devRef .tc main_arg4) = (A4 m c) :=
  (StretchG1.g1_keep_arg4 (R4 m c)).trans (atR4_arg4 m c)

theorem atR5_arg5 : R5 m c (Proc.devRef .tc main_arg5) = (A5 m c) :=
  (StretchG1.g1_keep_arg5 (R4 m c)).trans (atR4_arg5 m c)

theorem atR5_arg6 : R5 m c (Proc.devRef .tc main_arg6) = (A6 m c) :=
  (StretchG1.g1_keep_arg6 (R4 m c)).trans (atR4_arg6 m c)

theorem atR5_arg7 : R5 m c (Proc.devRef .tc main_arg7) = (A7 m c) :=
  (StretchG1.g1_keep_arg7 (R4 m c)).trans (atR4_arg7 m c)

theorem atR6_v47 : R6 m c (Proc.devRef .tc main_v47) = (Cert.Spec.refLayer (F := Ideal) (Cert.Spec.srcs (F := Ideal) (A1 m c)) (Cert.Spec.dsts (F := Ideal) (A1 m c)) (Cert.Spec.nrm (F := Ideal) (Cert.Spec.srcs (F := Ideal) (A1 m c)) (Cert.Spec.dsts (F := Ideal) (A1 m c))) (A0 m c) (A2 m c) (A3 m c)) :=
  (StretchD.b1_v47 (R5 m c)).trans (by rw [atR5_v43, atR5_arg3]; rfl)

theorem atR6_v5 : R6 m c (Proc.devRef .tc main_v5) = (Cert.Spec.srcs (F := Ideal) (A1 m c)) :=
  (StretchD.b1_keep_v5 (R5 m c)).trans (atR5_v5 m c)

theorem atR6_v6 : R6 m c (Proc.devRef .tc main_v6) = (Cert.Spec.dsts (F := Ideal) (A1 m c)) :=
  (StretchD.b1_keep_v6 (R5 m c)).trans (atR5_v6 m c)

theorem atR6_v29 : R6 m c (Proc.devRef .tc main_v29) = (Cert.Spec.nrm (F := Ideal) (Cert.Spec.srcs (F := Ideal) (A1 m c)) (Cert.Spec.dsts (F := Ideal) (A1 m c))) :=
  (StretchD.b1_keep_v29 (R5 m c)).trans (atR5_v29 m c)

theorem atR6_arg4 : R6 m c (Proc.devRef .tc main_arg4) = (A4 m c) :=
  (StretchD.b1_keep_arg4 (R5 m c)).trans (atR5_arg4 m c)

theorem atR6_arg5 : R6 m c (Proc.devRef .tc main_arg5) = (A5 m c) :=
  (StretchD.b1_keep_arg5 (R5 m c)).trans (atR5_arg5 m c)

theorem atR6_arg6 : R6 m c (Proc.devRef .tc main_arg6) = (A6 m c) :=
  (StretchD.b1_keep_arg6 (R5 m c)).trans (atR5_arg6 m c)

theorem atR6_arg7 : R6 m c (Proc.devRef .tc main_arg7) = (A7 m c) :=
  (StretchD.b1_keep_arg7 (R5 m c)).trans (atR5_arg7 m c)

/-! ## Layer 2: the contraction, the aggregation, the tail -/

theorem atR7_v48 : R7 m c (Proc.devRef .tc main_v48) = (Cert.Spec.dotR (F := Ideal) (Cert.Spec.refLayer (F := Ideal) (Cert.Spec.srcs (F := Ideal) (A1 m c)) (Cert.Spec.dsts (F := Ideal) (A1 m c)) (Cert.Spec.nrm (F := Ideal) (Cert.Spec.srcs (F := Ideal) (A1 m c)) (Cert.Spec.dsts (F := Ideal) (A1 m c))) (A0 m c) (A2 m c) (A3 m c)) (A4 m c)) :=
  (StretchD.d2_v48 (R6 m c)).trans (by rw [atR6_v47, atR6_arg4])

theorem atR7_v5 : R7 m c (Proc.devRef .tc main_v5) = (Cert.Spec.srcs (F := Ideal) (A1 m c)) :=
  (StretchD.d2_keep_v5 (R6 m c)).trans (atR6_v5 m c)

theorem atR7_v6 : R7 m c (Proc.devRef .tc main_v6) = (Cert.Spec.dsts (F := Ideal) (A1 m c)) :=
  (StretchD.d2_keep_v6 (R6 m c)).trans (atR6_v6 m c)

theorem atR7_v29 : R7 m c (Proc.devRef .tc main_v29) = (Cert.Spec.nrm (F := Ideal) (Cert.Spec.srcs (F := Ideal) (A1 m c)) (Cert.Spec.dsts (F := Ideal) (A1 m c))) :=
  (StretchD.d2_keep_v29 (R6 m c)).trans (atR6_v29 m c)

theorem atR7_arg5 : R7 m c (Proc.devRef .tc main_arg5) = (A5 m c) :=
  (StretchD.d2_keep_arg5 (R6 m c)).trans (atR6_arg5 m c)

theorem atR7_arg6 : R7 m c (Proc.devRef .tc main_arg6) = (A6 m c) :=
  (StretchD.d2_keep_arg6 (R6 m c)).trans (atR6_arg6 m c)

theorem atR7_arg7 : R7 m c (Proc.devRef .tc main_arg7) = (A7 m c) :=
  (StretchD.d2_keep_arg7 (R6 m c)).trans (atR6_arg7 m c)

theorem atR8_v61 : R8 m c (Proc.devRef .tc main_v61) = (Cert.Spec.aggOf (F := Ideal) (Cert.Spec.srcs (F := Ideal) (A1 m c)) (Cert.Spec.dsts (F := Ideal) (A1 m c)) (Cert.Spec.nrm (F := Ideal) (Cert.Spec.srcs (F := Ideal) (A1 m c)) (Cert.Spec.dsts (F := Ideal) (A1 m c))) (Cert.Spec.dotR (F := Ideal) (Cert.Spec.refLayer (F := Ideal) (Cert.Spec.srcs (F := Ideal) (A1 m c)) (Cert.Spec.dsts (F := Ideal) (A1 m c)) (Cert.Spec.nrm (F := Ideal) (Cert.Spec.srcs (F := Ideal) (A1 m c)) (Cert.Spec.dsts (F := Ideal) (A1 m c))) (A0 m c) (A2 m c) (A3 m c)) (A4 m c))) :=
  (StretchG2.g2_v61 (R7 m c)).trans (by rw [atR7_v5, atR7_v6, atR7_v29, atR7_v48])

theorem atR8_v5 : R8 m c (Proc.devRef .tc main_v5) = (Cert.Spec.srcs (F := Ideal) (A1 m c)) :=
  (StretchG2.g2_keep_v5 (R7 m c)).trans (atR7_v5 m c)

theorem atR8_v6 : R8 m c (Proc.devRef .tc main_v6) = (Cert.Spec.dsts (F := Ideal) (A1 m c)) :=
  (StretchG2.g2_keep_v6 (R7 m c)).trans (atR7_v6 m c)

theorem atR8_v29 : R8 m c (Proc.devRef .tc main_v29) = (Cert.Spec.nrm (F := Ideal) (Cert.Spec.srcs (F := Ideal) (A1 m c)) (Cert.Spec.dsts (F := Ideal) (A1 m c))) :=
  (StretchG2.g2_keep_v29 (R7 m c)).trans (atR7_v29 m c)

theorem atR8_arg5 : R8 m c (Proc.devRef .tc main_arg5) = (A5 m c) :=
  (StretchG2.g2_keep_arg5 (R7 m c)).trans (atR7_arg5 m c)

theorem atR8_arg6 : R8 m c (Proc.devRef .tc main_arg6) = (A6 m c) :=
  (StretchG2.g2_keep_arg6 (R7 m c)).trans (atR7_arg6 m c)

theorem atR8_arg7 : R8 m c (Proc.devRef .tc main_arg7) = (A7 m c) :=
  (StretchG2.g2_keep_arg7 (R7 m c)).trans (atR7_arg7 m c)

theorem atR9_v65 : R9 m c (Proc.devRef .tc main_v65) = (Cert.Spec.refLayer (F := Ideal) (Cert.Spec.srcs (F := Ideal) (A1 m c)) (Cert.Spec.dsts (F := Ideal) (A1 m c)) (Cert.Spec.nrm (F := Ideal) (Cert.Spec.srcs (F := Ideal) (A1 m c)) (Cert.Spec.dsts (F := Ideal) (A1 m c))) (Cert.Spec.refLayer (F := Ideal) (Cert.Spec.srcs (F := Ideal) (A1 m c)) (Cert.Spec.dsts (F := Ideal) (A1 m c)) (Cert.Spec.nrm (F := Ideal) (Cert.Spec.srcs (F := Ideal) (A1 m c)) (Cert.Spec.dsts (F := Ideal) (A1 m c))) (A0 m c) (A2 m c) (A3 m c)) (A4 m c) (A5 m c)) :=
  (StretchD.b2_v65 (R8 m c)).trans (by rw [atR8_v61, atR8_arg5]; rfl)

theorem atR9_v5 : R9 m c (Proc.devRef .tc main_v5) = (Cert.Spec.srcs (F := Ideal) (A1 m c)) :=
  (StretchD.b2_keep_v5 (R8 m c)).trans (atR8_v5 m c)

theorem atR9_v6 : R9 m c (Proc.devRef .tc main_v6) = (Cert.Spec.dsts (F := Ideal) (A1 m c)) :=
  (StretchD.b2_keep_v6 (R8 m c)).trans (atR8_v6 m c)

theorem atR9_v29 : R9 m c (Proc.devRef .tc main_v29) = (Cert.Spec.nrm (F := Ideal) (Cert.Spec.srcs (F := Ideal) (A1 m c)) (Cert.Spec.dsts (F := Ideal) (A1 m c))) :=
  (StretchD.b2_keep_v29 (R8 m c)).trans (atR8_v29 m c)

theorem atR9_arg6 : R9 m c (Proc.devRef .tc main_arg6) = (A6 m c) :=
  (StretchD.b2_keep_arg6 (R8 m c)).trans (atR8_arg6 m c)

theorem atR9_arg7 : R9 m c (Proc.devRef .tc main_arg7) = (A7 m c) :=
  (StretchD.b2_keep_arg7 (R8 m c)).trans (atR8_arg7 m c)

/-! ## Layer 3: the contraction, the aggregation, the tail -/

theorem atR10_v66 : R10 m c (Proc.devRef .tc main_v66) = (Cert.Spec.dotR (F := Ideal) (Cert.Spec.refLayer (F := Ideal) (Cert.Spec.srcs (F := Ideal) (A1 m c)) (Cert.Spec.dsts (F := Ideal) (A1 m c)) (Cert.Spec.nrm (F := Ideal) (Cert.Spec.srcs (F := Ideal) (A1 m c)) (Cert.Spec.dsts (F := Ideal) (A1 m c))) (Cert.Spec.refLayer (F := Ideal) (Cert.Spec.srcs (F := Ideal) (A1 m c)) (Cert.Spec.dsts (F := Ideal) (A1 m c)) (Cert.Spec.nrm (F := Ideal) (Cert.Spec.srcs (F := Ideal) (A1 m c)) (Cert.Spec.dsts (F := Ideal) (A1 m c))) (A0 m c) (A2 m c) (A3 m c)) (A4 m c) (A5 m c)) (A6 m c)) :=
  (StretchD.d3_v66 (R9 m c)).trans (by rw [atR9_v65, atR9_arg6])

theorem atR10_v5 : R10 m c (Proc.devRef .tc main_v5) = (Cert.Spec.srcs (F := Ideal) (A1 m c)) :=
  (StretchD.d3_keep_v5 (R9 m c)).trans (atR9_v5 m c)

theorem atR10_v6 : R10 m c (Proc.devRef .tc main_v6) = (Cert.Spec.dsts (F := Ideal) (A1 m c)) :=
  (StretchD.d3_keep_v6 (R9 m c)).trans (atR9_v6 m c)

theorem atR10_v29 : R10 m c (Proc.devRef .tc main_v29) = (Cert.Spec.nrm (F := Ideal) (Cert.Spec.srcs (F := Ideal) (A1 m c)) (Cert.Spec.dsts (F := Ideal) (A1 m c))) :=
  (StretchD.d3_keep_v29 (R9 m c)).trans (atR9_v29 m c)

theorem atR10_arg7 : R10 m c (Proc.devRef .tc main_arg7) = (A7 m c) :=
  (StretchD.d3_keep_arg7 (R9 m c)).trans (atR9_arg7 m c)

theorem atR11_v79 : R11 m c (Proc.devRef .tc main_v79) = (Cert.Spec.aggOf (F := Ideal) (Cert.Spec.srcs (F := Ideal) (A1 m c)) (Cert.Spec.dsts (F := Ideal) (A1 m c)) (Cert.Spec.nrm (F := Ideal) (Cert.Spec.srcs (F := Ideal) (A1 m c)) (Cert.Spec.dsts (F := Ideal) (A1 m c))) (Cert.Spec.dotR (F := Ideal) (Cert.Spec.refLayer (F := Ideal) (Cert.Spec.srcs (F := Ideal) (A1 m c)) (Cert.Spec.dsts (F := Ideal) (A1 m c)) (Cert.Spec.nrm (F := Ideal) (Cert.Spec.srcs (F := Ideal) (A1 m c)) (Cert.Spec.dsts (F := Ideal) (A1 m c))) (Cert.Spec.refLayer (F := Ideal) (Cert.Spec.srcs (F := Ideal) (A1 m c)) (Cert.Spec.dsts (F := Ideal) (A1 m c)) (Cert.Spec.nrm (F := Ideal) (Cert.Spec.srcs (F := Ideal) (A1 m c)) (Cert.Spec.dsts (F := Ideal) (A1 m c))) (A0 m c) (A2 m c) (A3 m c)) (A4 m c) (A5 m c)) (A6 m c))) :=
  (StretchG3.g3_v79 (R10 m c)).trans (by rw [atR10_v5, atR10_v6, atR10_v29, atR10_v66])

theorem atR11_arg7 : R11 m c (Proc.devRef .tc main_arg7) = (A7 m c) :=
  (StretchG3.g3_keep_arg7 (R10 m c)).trans (atR10_arg7 m c)

theorem atR12_v82 : R12 m c (Proc.devRef .tc main_v82) = Cert.Spec.refVal (F := Ideal) (A0 m c) (A1 m c) (A2 m c) (A3 m c) (A4 m c) (A5 m c) (A6 m c) (A7 m c) :=
  (StretchD.b3_v82 (R11 m c)).trans (by rw [atR11_v79, atR11_arg7]; rfl)

/-- The fold of all 106 operations over the launch contents, read at the result buffer. -/
theorem result : after ops (launchContents m c) (Proc.devRef .tc main_v82) = Cert.Spec.refVal (F := Ideal) (A0 m c) (A1 m c) (A2 m c) (A3 m c) (A4 m c) (A5 m c) (A6 m c) (A7 m c) := by
  rw [ops_split]
  simp only [after_append]
  exact atR12_v82 m c

end Read

set_option maxRecDepth 8192 in
set_option maxHeartbeats 42400000 in
/-- From any memory with zero counters every weakly fair execution of the reference terminates with the result at
    `Spec.refVal` of the launch arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v82) = Cert.Spec.refVal (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v82).trans (result m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.HandRun

end
-- ==== Proof.lean ====
/-
  A three-layer graph convolution, kernel against reference, as equal functions on the extended reals.

  Both programs read node features x (50000 × 128), an edge list (2 × 800000) and three weight matrices with their
  biases.  From the edge list they build, with the same operations, the source and destination index of every edge plus
  one self-loop per node, the degree of every node, and each edge's weight
      nrm = deg(source)^(-1/2) · deg(destination)^(-1/2)   (zero where the degree is not positive).
  A layer is   h ↦ act( A (h · W) + b ),   A y = Σ over edges into a node of nrm · y[source],
  with act the larger of its argument and zero in the first two layers and absent in the third.

  The kernel computes h · W in ten blocks of 5000 rows, each block's rows against W into a zero accumulator after two
  changes of float format that are the identity on the extended reals, and adds the bias, re-laid as one row, inside a
  second blockwise pass; the reference computes h · W as one contraction and broadcasts the bias.  Entry (r, c) of
  either product is Σ_k h(r, k) · W(k, c), and entry (r, c) of either bias array is b(c): so each layer, and hence the
  whole program, is one function of the arguments on both sides.  No step distributes, cancels or moves a factor
  across a sum, so the precondition (finite inputs) is never opened.

  The three frames: the kernel's two are the generated frame certificates; the reference's is its run with the
  result dropped.  The idealization rewrote no operation, so `preserves` is `True`.
-/
import proofs.«112825_j71571335020554_1_alg».proof.Defs
import proofs.«112825_j71571335020554_1_alg».proof.Proof.Gen.Kernel
import proofs.«112825_j71571335020554_1_alg».proof.Proof.Gen.Kernel.Skeleton
import proofs.«112825_j71571335020554_1_alg».proof.Proof.Gen.Kernel.Launch
import proofs.«112825_j71571335020554_1_alg».proof.Proof.Gen.Kernel.Points
import proofs.«112825_j71571335020554_1_alg».proof.Proof.Gen.Kernel.Frame
import proofs.«112825_j71571335020554_1_alg».proof.Proof.Gen.KernelIdeal
import proofs.«112825_j71571335020554_1_alg».proof.Proof.Gen.KernelIdeal.Skeleton
import proofs.«112825_j71571335020554_1_alg».proof.Proof.Gen.KernelIdeal.Launch
import proofs.«112825_j71571335020554_1_alg».proof.Proof.Gen.KernelIdeal.Points
import proofs.«112825_j71571335020554_1_alg».proof.Proof.Gen.KernelIdeal.Frame
import proofs.«112825_j71571335020554_1_alg».proof.Proof.Gen.ReferenceIdeal
import proofs.«112825_j71571335020554_1_alg».proof.Proof.Gen.Pre_finite_inputs
import proofs.«112825_j71571335020554_1_alg».proof.Proof.KernelRun
import proofs.«112825_j71571335020554_1_alg».proof.Proof.Fold
import proofs.«112825_j71571335020554_1_alg».proof.Proof.Bridge
import proofs.«112825_j71571335020554_1_alg».proof.Proof.RefRun
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.HandRun.run m ρ)

/-- The idealization rewrote no operation. -/
theorem preserves : Cert.preserves_Kernel_KernelIdeal := trivial

/-- From memories agreeing on the arguments both idealized programs end with the kernel's composed value of the
    arguments in their result arrays: the kernel by its fold through @main, the reference because its composed value is
    the same function. -/
theorem algebraic : Cert.algebraic_KernelIdeal_ReferenceIdeal := by
  intro m ρ m' ρ' _ hagree
  refine ⟨fun c => Cert.Spec.kerVal (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Fold.result m ρ c), (h c).2⟩) (Cert.KernelIdeal.Named.run m ρ)
  · refine (θ_run Cert.ReferenceIdeal.defs _ _).mono (fun r h c => ⟨(h c).1.trans ?_, (h c).2⟩)
      (Cert.ReferenceIdeal.HandRun.run m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2]
    exact (Cert.Spec.kerVal_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
